-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x51 : Shape := ⟨2, ![800000, 51]⟩
abbrev S50000x3 : Shape := ⟨2, ![50000, 3]⟩
abbrev S308x128 : Shape := ⟨2, ![308, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x51 : S_.BroadcastsInDim S800000x51 (![] : Fin 0 → Fin S800000x51.rank)
  reducesTo_S800000x51_S_d0_1 : S800000x51.ReducesTo [0, 1] S_
  bcast_S_S50000x3 : S_.BroadcastsInDim S50000x3 (![] : Fin 0 → Fin S50000x3.rank)
  reducesTo_S50000x3_S_d0_1 : S50000x3.ReducesTo [0, 1] S_
  bcast_S_S308x128 : S_.BroadcastsInDim S308x128 (![] : Fin 0 → Fin S308x128.rank)
  reducesTo_S308x128_S_d0_1 : S308x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x128 .f32) (main_arg14 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128x128 .f32) (main_arg9 : FVec F S128 .f32) (main_arg10 : FVec F S128x1 .f32) (main_arg11 : FVec F S256x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S256x128 .f32) (main_arg12 : FVec F S128 .f32) (main_arg13 : FVec F S128x128 .f32) (main_arg14 : FVec F S128 .f32) (main_v13 : IVec S_ 1) (main_v16 : IVec S308x128 1) : IVec S_ 1 :=
  let main_c_5 : IVec S_ 1 := constantI S_ 1 1#1
  let main_v17 : IVec S_ 1 := (fun x v => Host.reduce IntOp.andi x v reducesTo_S308x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000x51 .f32) (main_arg3 : FVec F S50000x3 .f32) (main_arg4 : FVec F S308x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S256x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x51 .f32 := Host.absf main_arg2
  let main_cst_0 : FVec F S_ .f32 := constant S_ .f32 0x7F800000#32
  let main_v5 : FVec F S800000x51 .f32 := broadcastInDim S800000x51 ![] bcast_S_S800000x51 main_cst_0
  let main_v6 : IVec S800000x51 1 := cmpf .olt main_v4 main_v5
  let main_c_1 : IVec S_ 1 := constantI S_ 1 1#1
  let main_v7 : IVec S_ 1 := (fun x v => Host.reduce IntOp.andi x v reducesTo_S800000x51_S_d0_1 h_S_) main_v6 main_c_1
  let main_v8 : IVec S_ 1 := andi main_v3 main_v7
  let main_v9 : FVec F S50000x3 .f32 := Host.absf main_arg3
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S308x128 .f32 := Host.absf main_arg4
  let main_cst_4 : FVec F S_ .f32 := constant S_ .f32 0x7F800000#32
  let main_v15 : FVec F S308x128 .f32 := broadcastInDim S308x128 ![] bcast_S_S308x128 main_cst_4
  let main_v16 : IVec S308x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x51 : Shape := ⟨2, ![800000, 51]⟩
abbrev S50000x3 : Shape := ⟨2, ![50000, 3]⟩
abbrev S308x128 : Shape := ⟨2, ![308, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S51x128 : Shape := ⟨2, ![51, 128]⟩
abbrev S1x128 : Shape := ⟨2, ![1, 128]⟩
abbrev S6400x128 : Shape := ⟨2, ![6400, 128]⟩
abbrev S6400x51 : Shape := ⟨2, ![6400, 51]⟩
abbrev S6400x3 : Shape := ⟨2, ![6400, 3]⟩
abbrev S6400x1 : Shape := ⟨2, ![6400, 1]⟩
abbrev S6400 : Shape := ⟨1, ![6400]⟩
abbrev S5000x128 : Shape := ⟨2, ![5000, 128]⟩

abbrev nBuf : Space → Nat
  | .hbm => 93
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x51, .f32⟩
  | .hbm, ⟨3, _⟩ => ⟨S50000x3, .f32⟩
  | .hbm, ⟨4, _⟩ => ⟨S308x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x3, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x3, .f32⟩
  | .hbm, ⟨56, _⟩ => ⟨S800000x3, .f32⟩
  | .hbm, ⟨57, _⟩ => ⟨S128x128, .f32⟩
  | .hbm, ⟨58, _⟩ => ⟨S128x128, .bf16⟩
  | .hbm, ⟨59, _⟩ => ⟨S128x128, .f32⟩
  | .hbm, ⟨60, _⟩ => ⟨S128x128, .bf16⟩
  | .hbm, ⟨61, _⟩ => ⟨S51x128, .f32⟩
  | .hbm, ⟨62, _⟩ => ⟨S51x128, .bf16⟩
  | .hbm, ⟨63, _⟩ => ⟨S1x128, .f32⟩
  | .hbm, ⟨64, _⟩ => ⟨S1x128, .bf16⟩
  | .hbm, ⟨65, _⟩ => ⟨S1x128, .f32⟩
  | .hbm, ⟨66, _⟩ => ⟨S128x128, .bf16⟩
  | .hbm, ⟨67, _⟩ => ⟨S1x128, .f32⟩
  | .hbm, ⟨68, _⟩ => ⟨S128x128, .bf16⟩
  | .hbm, ⟨69, _⟩ => ⟨S1x128, .f32⟩
  | .hbm, ⟨70, _⟩ => ⟨S128x1, .bf16⟩
  | .hbm, ⟨71, _⟩ => ⟨S800000x128, .bf16⟩
  | .hbm, ⟨72, _⟩ => ⟨S800000x1, .f32⟩
  | .hbm, ⟨73, _⟩ => ⟨S800000x3, .f32⟩
  | .hbm, ⟨74, _⟩ => ⟨S800000x3, .f32⟩
  | .hbm, ⟨75, _⟩ => ⟨S_, .f32⟩
  | .hbm, ⟨76, _⟩ => ⟨S50000x3, .f32⟩
  | .hbm, ⟨77, _⟩ => ⟨S800000x1, .i32⟩
  | .hbm, ⟨78, _⟩ => ⟨S50000x3, .f32⟩
  | .hbm, ⟨79, _⟩ => ⟨S50000x3, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S128x128, .f32⟩
  | .hbm, ⟨86, _⟩ => ⟨S128x128, .bf16⟩
  | .hbm, ⟨87, _⟩ => ⟨S128x128, .f32⟩
  | .hbm, ⟨88, _⟩ => ⟨S128x128, .bf16⟩
  | .hbm, ⟨89, _⟩ => ⟨S1x128, .f32⟩
  | .hbm, ⟨90, _⟩ => ⟨S128x128, .bf16⟩
  | .hbm, ⟨91, _⟩ => ⟨S1x128, .f32⟩
  | .hbm, ⟨92, _⟩ => ⟨S50000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S6400x51, .f32⟩
  | .local _ .vmem, ⟨5, _⟩ => ⟨S6400x51, .f32⟩
  | .local _ .vmem, ⟨6, _⟩ => ⟨S6400x3, .f32⟩
  | .local _ .vmem, ⟨7, _⟩ => ⟨S6400x3, .f32⟩
  | .local _ .vmem, ⟨8, _⟩ => ⟨S128x128, .bf16⟩
  | .local _ .vmem, ⟨9, _⟩ => ⟨S128x128, .bf16⟩
  | .local _ .vmem, ⟨10, _⟩ => ⟨S51x128, .bf16⟩
  | .local _ .vmem, ⟨11, _⟩ => ⟨S1x128, .bf16⟩
  | .local _ .vmem, ⟨12, _⟩ => ⟨S1x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S128x1, .bf16⟩
  | .local _ .vmem, ⟨18, _⟩ => ⟨S6400x128, .bf16⟩
  | .local _ .vmem, ⟨19, _⟩ => ⟨S6400x128, .bf16⟩
  | .local _ .vmem, ⟨20, _⟩ => ⟨S6400x1, .f32⟩
  | .local _ .vmem, ⟨21, _⟩ => ⟨S6400x1, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .bf16⟩
  | .local _ .vmem, ⟨27, _⟩ => ⟨S128x128, .bf16⟩
  | .local _ .vmem, ⟨28, _⟩ => ⟨S1x128, .f32⟩
  | .local _ .vmem, ⟨29, _⟩ => ⟨S128x128, .bf16⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v49 : Ref sig .tc := ⟨.hbm, 73, rfl⟩
abbrev main_v50 : Ref sig .tc := ⟨.hbm, 74, rfl⟩
abbrev main_cst : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem7_1 : DmaSem sig := 32

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x51 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S51x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S6400x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S6400x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S308x128_S128x128_0_0 : S308x128.Slices ![0, 0] S128x128
  slices_S308x128_S128x128_128_0 : S308x128.Slices ![128, 0] S128x128
  slices_S308x128_S51x128_256_0 : S308x128.Slices ![256, 0] S51x128
  slices_S308x128_S1x128_307_0 : S308x128.Slices ![307, 0] S1x128
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x51_S6400x51_0_0 : ∀ a, (![0, 0] : Fin 2 → Nat) a + S6400x51.size a ≤ S6400x51.size a
  h_S6400x51 : 0 < S6400x51.numel
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  reduces_S6400x3_S6400 : S6400x3.Reduces [1] S6400
  shapeCasts_S6400_S6400x1 : S6400.ShapeCasts S6400x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S6400x1_S6400x128 : S6400x1.Broadcasts S6400x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S51x128_S51x128_0_0 : ∀ a, (![0, 0] : Fin 2 → Nat) a + S51x128.size a ≤ S51x128.size a
  h_S51x128 : 0 < S51x128.numel
  shapeCasts_S51x128_S51x128 : S51x128.ShapeCasts S51x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  packedbf16_S6400x128_S6400x128_0_0 : (Rect.unit (s := S6400x128) ![0, 0] S6400x128.size inb_S6400x128_S6400x128_0_0).PackedRows (EltTy.packing .bf16)
  inb_S6400x1_S6400x1_0_0 : ∀ a, (![0, 0] : Fin 2 → Nat) a + S6400x1.size a ≤ S6400x1.size a
  h_S6400x1 : 0 < S6400x1.numel
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S6400x128_S128x128_S6400x128_1_0_0_1_n_n_wf : DotDims.WF S6400x128 S128x128 S6400x128 [1] [0] [0] [1] [] []
  dot_S6400x51_S51x128_S6400x128_1_0_0_1_n_n_wf : DotDims.WF S6400x51 S51x128 S6400x128 [1] [0] [0] [1] [] []
  dot_S6400x128_S128x1_S6400x1_1_0_0_1_n_n_wf : DotDims.WF S6400x128 S128x1 S6400x1 [1] [0] [0] [1] [] []
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x51.size a ≤ S800000x51.size a
  hwx0_2 : ∀ i : grid0.Coords, EltTy.bits .f32 = 32 ∨ (Rect.block (s := S800000x51) S6400x51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x3.size a ≤ S800000x3.size a
  hwx0_3 : ∀ i : grid0.Coords, EltTy.bits .f32 = 32 ∨ (Rect.block (s := S800000x3) S6400x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S51x128.size a ≤ S51x128.size a
  hwx0_6 : ∀ i : grid0.Coords, EltTy.bits .bf16 = 32 ∨ (Rect.block (s := S51x128) S51x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .bf16 = 32 ∨ (Rect.block (s := S1x128) S1x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S128x1.size a
  hwx0_13 : ∀ i : grid0.Coords, EltTy.bits .bf16 = 32 ∨ (Rect.block (s := S128x1) S128x1.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S6400x128.size a ≤ S800000x128.size a
  hwx0_14 : ∀ i : grid0.Coords, EltTy.bits .bf16 = 32 ∨ (Rect.block (s := S800000x128) S6400x128.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S6400x1.size a ≤ S800000x1.size a
  hwx0_15 : ∀ i : grid0.Coords, EltTy.bits .f32 = 32 ∨ (Rect.block (s := S800000x1) S6400x1.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x51_S51x128_S6400x128_1_0_0_1_n_n : DotDims S6400x51 S51x128 S6400x128 where
  lhsContracting := [1]
  rhsContracting := [0]
  lhsNonContracting := [0]
  rhsNonContracting := [1]
  lhsBatch := []
  rhsBatch := []
  wf := dot_S6400x51_S51x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x51.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S6400x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S51x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v46) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v47) S128x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v48_0) S6400x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v48_1) S6400x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v66) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x51 : Shape := ⟨2, ![800000, 51]⟩
abbrev S50000x3 : Shape := ⟨2, ![50000, 3]⟩
abbrev S308x128 : Shape := ⟨2, ![308, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x308 : Shape := ⟨2, ![800000, 308]⟩
abbrev S1x128 : Shape := ⟨2, ![1, 128]⟩
abbrev S50000x256 : Shape := ⟨2, ![50000, 256]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S800000x51, .f32⟩
  | 3 => ⟨S50000x3, .f32⟩
  | 4 => ⟨S308x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S256x128, .f32⟩
  | 12 => ⟨S128, .f32⟩
  | 13 => ⟨S128x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S800000x3, .f32⟩
  | 39 => ⟨S_, .f32⟩
  | 40 => ⟨S800000, .f32⟩
  | 41 => ⟨S800000x1, .f32⟩
  | 42 => ⟨S800000x1, .f32⟩
  | 43 => ⟨S_, .f32⟩
  | 44 => ⟨S800000x1, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x308, .f32⟩
  | 65 => ⟨S800000x128, .f32⟩
  | 66 => ⟨S1x128, .f32⟩
  | 67 => ⟨S800000x128, .f32⟩
  | 68 => ⟨S800000x128, .f32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S_, .f32⟩
  | 75 => ⟨S800000x128, .f32⟩
  | 76 => ⟨S800000x128, .f32⟩
  | 77 => ⟨S800000x128, .f32⟩
  | 78 => ⟨S800000x128, .f32⟩
  | 79 => ⟨S1x128, .f32⟩
  | 80 => ⟨S800000x128, .f32⟩
  | 81 => ⟨S800000x128, .f32⟩
  | 82 => ⟨S800000x128, .f32⟩
  | 83 => ⟨S800000x128, .f32⟩
  | 84 => ⟨S_, .f32⟩
  | 85 => ⟨S800000x128, .f32⟩
  | 86 => ⟨S800000x128, .f32⟩
  | 87 => ⟨S_, .f32⟩
  | 88 => ⟨S800000x128, .f32⟩
  | 89 => ⟨S800000x128, .f32⟩
  | 90 => ⟨S800000x128, .f32⟩
  | 91 => ⟨S800000x128, .f32⟩
  | 92 => ⟨S1x128, .f32⟩
  | 93 => ⟨S800000x128, .f32⟩
  | 94 => ⟨S800000x128, .f32⟩
  | 95 => ⟨S800000x128, .f32⟩
  | 96 => ⟨S800000x128, .f32⟩
  | 97 => ⟨S_, .f32⟩
  | 98 => ⟨S800000x128, .f32⟩
  | 99 => ⟨S800000x128, .f32⟩
  | 100 => ⟨S_, .f32⟩
  | 101 => ⟨S800000x128, .f32⟩
  | 102 => ⟨S800000x128, .f32⟩
  | 103 => ⟨S800000x128, .f32⟩
  | 104 => ⟨S800000x1, .f32⟩
  | 105 => ⟨S_, .f32⟩
  | 106 => ⟨S_, .f32⟩
  | 107 => ⟨S_, .f32⟩
  | 108 => ⟨S800000x1, .f32⟩
  | 109 => ⟨S800000x1, .f32⟩
  | 110 => ⟨S_, .f32⟩
  | 111 => ⟨S800000x1, .f32⟩
  | 112 => ⟨S800000x1, .f32⟩
  | 113 => ⟨S800000x3, .f32⟩
  | 114 => ⟨S800000x3, .f32⟩
  | 115 => ⟨S_, .f32⟩
  | 116 => ⟨S50000x3, .f32⟩
  | 117 => ⟨S800000x1, .i32⟩
  | 118 => ⟨S50000x3, .f32⟩
  | 119 => ⟨S50000x3, .f32⟩
  | 120 => ⟨S_, .f32⟩
  | 121 => ⟨S50000x128, .f32⟩
  | 122 => ⟨S800000x1, .i32⟩
  | 123 => ⟨S50000x128, .f32⟩
  | 124 => ⟨S50000x256, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_call2_v5 : Ref sig .tc := ⟨.hbm, 102, rfl⟩
abbrev main_v54 : Ref sig .tc := ⟨.hbm, 103, rfl⟩
abbrev main_v55 : Ref sig .tc := ⟨.hbm, 104, rfl⟩
abbrev main_cst_8 : Ref sig .tc := ⟨.hbm, 105, rfl⟩
abbrev main_cst_9 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_11 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  concatenates_S800000x128_S800000x128_S800000x51_S800000x1_S800000x308_d1 : Shape.Concatenates [S800000x128, S800000x128, S800000x51, S800000x1] S800000x308 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x308_S308x128_S800000x128_1_0_0_1_n_n_wf : DotDims.WF S800000x308 S308x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x308_S308x128_S800000x128_1_0_0_1_n_n : DotDims S800000x308 S308x128 S800000x128 where
  lhsContracting := [1]
  rhsContracting := [0]
  lhsNonContracting := [0]
  rhsNonContracting := [1]
  lhsBatch := []
  rhsBatch := []
  wf := dot_S800000x308_S308x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with the contents of its two result arrays named.
  The program is four stretches in a row: host operations, the edge network's grid, host operations, the node
  network's grid. The contents of every buffer at each boundary are a fold through the program: after a stretch of
  host operations they are the operations applied to the contents before it, after a grid they are the grid's arrays at
  what its write-backs leave and every other buffer as it was. Every weakly fair execution ends, without a fault, with
  every buffer the run still holds at the last of these contents; read at the two result arrays and at the
  arguments, that is the statement below.
-/
import proofs.«171544_j47828755808708_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the memory m terminates without a fault, and in its final state every buffer
    that outlives the grids holds the last boundary's contents. -/
theorem run_final : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The same run read at the program's two results and its arguments: the node network's result array (the new node
    features) holds what the second grid's write-backs leave in it; the new positions, written by the second
    stretch of host operations and touched by nothing after it, hold what that stretch computed; every argument
    array is as launched. -/
theorem run_results : θ_run defs (onTc (τ := τ) (main (F := F))) ⟨m, fun _ => 0, ρ⟩ (fun r => ∀ c : Dev nD,
      r.2.mem ((c.tc : Thread nD τ).loc main_v66) = (dat1 (V3 m ρ) c).arrAt 7 cfg1.N
      ∧ r.2.mem ((c.tc : Thread nD τ).loc main_v54) = W3 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v66 (by decide))).trans (W4_arr m ρ c 7),
      (h c _ (mem_uc main_v54 (by decide))).trans (W4_of_ne m ρ c main_v54 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c)⟩) (run_final m ρ)

end Cert.KernelIdeal.ValueRun

end
-- ==== Proof.NetSpec.lean ====
/-
  The mathematics of one message-passing layer, written once on the extended reals and row by row: nothing here
  mentions a program. A row of the edge network takes the two gathered node-feature rows, the edge's attribute row
  and its coordinate difference; a row of the node network takes a node's features and its aggregated messages.
  The first dense layer of each network is written the way a tiled implementation computes it — one partial
  product per block of rows of the weight matrix — and the two lemmas at the end say that, when the blocks are the
  consecutive row blocks of one matrix, this is the single product of the joined row with that matrix.
-/
import Mathlib.Algebra.BigOperators.Fin
import Idealize.ShloMosaic.PureOps.Ideal

noncomputable section

namespace Cert.NetSpec

open Idealize.ShloMosaic

/-! ## A sum over a joined axis is the sum of the sums over its parts -/

section Split
variable {M : Type*} [AddCommMonoid M]

/-- A sum over the first n = a + b indices: the first a of them, then the following b. Only associativity and
    commutativity of addition are used, so it holds on the extended reals with their infinities. -/
theorem sum_fin_add {a b n : ℕ} (h : a + b = n) (f : Fin n → M) :
    ∑ k, f k = (∑ k : Fin a, f ⟨k.val, by omega⟩) + ∑ k : Fin b, f ⟨a + k.val, by omega⟩ := by
  subst h
  exact Fin.sum_univ_add f

/-- 256 = 128 + 128. -/
theorem sum_256 (f : Fin 256 → M) :
    ∑ k, f k = (∑ k : Fin 128, f ⟨k.val, by omega⟩) + ∑ k : Fin 128, f ⟨128 + k.val, by omega⟩ :=
  sum_fin_add (a := 128) (b := 128) rfl f

/-- 308 = 128 + 128 + 51 + 1. -/
theorem sum_308 (f : Fin 308 → M) :
    ∑ k, f k = (((∑ k : Fin 128, f ⟨k.val, by omega⟩) + ∑ k : Fin 128, f ⟨128 + k.val, by omega⟩)
        + ∑ k : Fin 51, f ⟨256 + k.val, by omega⟩) + f ⟨307, by omega⟩ := by
  rw [sum_fin_add (a := 307) (b := 1) rfl f, Fin.sum_univ_one,
    sum_fin_add (a := 256) (b := 51) rfl (fun k : Fin 307 => f ⟨k.val, by omega⟩),
    sum_fin_add (a := 128) (b := 128) rfl (fun k : Fin 256 => f ⟨k.val, by omega⟩)]
  rfl

end Split

/-! ## Joined rows -/

/-- Two rows of 128 entries laid end to end. -/
def join2 (a b : Fin 128 → EReal) (k : Fin 256) : EReal :=
  if h : k.val < 128 then a ⟨k.val, h⟩ else b ⟨k.val - 128, by omega⟩

/-- Rows of 128, 128 and 51 entries and one more entry, laid end to end. -/
def join4 (a b : Fin 128 → EReal) (c : Fin 51 → EReal) (r : EReal) (k : Fin 308) : EReal :=
  if h₁ : k.val < 128 then a ⟨k.val, h₁⟩
  else if h₂ : k.val < 256 then b ⟨k.val - 128, by omega⟩
  else if h₃ : k.val < 307 then c ⟨k.val - 256, by omega⟩
  else r

/-! ## The activation and the dense layer -/

/-- x · 1 / (1 + e^(-x)), with the conventions of the extended reals at the infinities. -/
def silu (x : EReal) : EReal := x * Ideal.logistic x

/-- A row against a 128-column weight matrix, plus the bias: entry j is ∑ₖ xₖ · Wₖⱼ + bⱼ. -/
def dense (x : Fin 128 → EReal) (W : Fin 128 → Fin 128 → EReal) (b : Fin 128 → EReal) (j : Fin 128) : EReal :=
  (∑ k : Fin 128, x k * W k j) + b j

/-! ## One edge -/

/-- The length of the coordinate difference, plus the offset eps. -/
def radial (d : Fin 3 → EReal) (eps : EReal) : EReal := Ideal.sqrt (∑ k, d k * d k) + eps

/-- First edge layer before the activation, as four partial products — the source node's features against Wr, the
    target node's against Wc, the attributes against Wa, the radial entry against the row wρ — and the bias. -/
def edgePre (hr hc : Fin 128 → EReal) (ea : Fin 51 → EReal) (d : Fin 3 → EReal) (eps : EReal)
    (Wr Wc : Fin 128 → Fin 128 → EReal) (Wa : Fin 51 → Fin 128 → EReal) (wρ : Fin 128 → EReal)
    (b₁ : Fin 128 → EReal) (j : Fin 128) : EReal :=
  ((((∑ k : Fin 128, hr k * Wr k j) + ∑ k : Fin 128, hc k * Wc k j)
      + ∑ k : Fin 51, ea k * Wa k j) + radial d eps * wρ j) + b₁ j

/-- The edge's message from the first layer's output: the activation, a dense layer, the activation. -/
def edgeMsg (pre : Fin 128 → EReal) (W₂ : Fin 128 → Fin 128 → EReal) (b₂ : Fin 128 → EReal) (j : Fin 128) : EReal :=
  silu (dense (fun k => silu (pre k)) W₂ b₂ j)

/-- The edge's coordinate weight from its message: a dense layer with the activation, a product with a single
    column, and the result clipped to [lo, hi]. -/
def edgeCoord (msg : Fin 128 → EReal) (W₃ : Fin 128 → Fin 128 → EReal) (b₃ : Fin 128 → EReal) (w₄ : Fin 128 → EReal)
    (lo hi : EReal) : EReal :=
  min hi (max lo (∑ k : Fin 128, silu (dense msg W₃ b₃ k) * w₄ k))

/-! ## One node -/

/-- The node's new features: its old ones plus a two-layer network of the old features and the aggregated
    messages, the first layer as two partial products (the features against Wh, the messages against Wg). -/
def nodeOut (h agg : Fin 128 → EReal) (Wh Wg : Fin 128 → Fin 128 → EReal) (b₅ : Fin 128 → EReal)
    (W₆ : Fin 128 → Fin 128 → EReal) (b₆ : Fin 128 → EReal) (j : Fin 128) : EReal :=
  h j + dense (fun k => silu (((∑ l : Fin 128, h l * Wh l k) + ∑ l : Fin 128, agg l * Wg l k) + b₅ k)) W₆ b₆ j

/-! ## The partial products are the product with the joined row -/

/-- With the four weight blocks the rows 0–127, 128–255, 256–306 and 307 of one matrix W₁, the first edge layer is
    the joined row [source features, target features, attributes, radial] against W₁, plus the bias. -/
theorem edgePre_of_rows (hr hc : Fin 128 → EReal) (ea : Fin 51 → EReal) (d : Fin 3 → EReal) (eps : EReal)
    (W₁ : Fin 308 → Fin 128 → EReal) (b₁ : Fin 128 → EReal) (j : Fin 128) :
    edgePre hr hc ea d eps (fun k => W₁ ⟨k.val, by omega⟩) (fun k => W₁ ⟨128 + k.val, by omega⟩)
        (fun k => W₁ ⟨256 + k.val, by omega⟩) (W₁ ⟨307, by omega⟩) b₁ j
      = (∑ k : Fin 308, join4 hr hc ea (radial d eps) k * W₁ k j) + b₁ j := by
  unfold edgePre
  rw [sum_308 (fun k : Fin 308 => join4 hr hc ea (radial d eps) k * W₁ k j)]
  have e0 : ∀ k : Fin 128, join4 hr hc ea (radial d eps) ⟨k.val, by omega⟩ = hr k := fun k => by
    unfold join4; rw [dif_pos (show k.val < 128 from k.isLt)]
  have e1 : ∀ k : Fin 128, join4 hr hc ea (radial d eps) ⟨128 + k.val, by omega⟩ = hc k := fun k => by
    unfold join4
    rw [dif_neg (show ¬ 128 + k.val < 128 by omega), dif_pos (show 128 + k.val < 256 by omega)]
    exact congrArg hc (Fin.ext (by show 128 + k.val - 128 = k.val; omega))
  have e2 : ∀ k : Fin 51, join4 hr hc ea (radial d eps) ⟨256 + k.val, by omega⟩ = ea k := fun k => by
    unfold join4
    rw [dif_neg (show ¬ 256 + k.val < 128 by omega), dif_neg (show ¬ 256 + k.val < 256 by omega),
      dif_pos (show 256 + k.val < 307 by omega)]
    exact congrArg ea (Fin.ext (by show 256 + k.val - 256 = k.val; omega))
  have e3 : join4 hr hc ea (radial d eps) ⟨307, by omega⟩ = radial d eps := by
    unfold join4
    rw [dif_neg (show ¬ (307 : ℕ) < 128 by omega), dif_neg (show ¬ (307 : ℕ) < 256 by omega),
      dif_neg (show ¬ (307 : ℕ) < 307 by omega)]
  simp only [e0, e1, e2, e3]

/-- With the two weight blocks the rows 0–127 and 128–255 of one matrix W₅, the first node layer's two partial
    products are the joined row [features, aggregated messages] against W₅. -/
theorem node_first_of_rows (h agg : Fin 128 → EReal) (W₅ : Fin 256 → Fin 128 → EReal) (k : Fin 128) :
    (∑ l : Fin 128, h l * W₅ ⟨l.val, by omega⟩ k) + ∑ l : Fin 128, agg l * W₅ ⟨128 + l.val, by omega⟩ k
      = ∑ l : Fin 256, join2 h agg l * W₅ l k := by
  rw [sum_256 (fun l : Fin 256 => join2 h agg l * W₅ l k)]
  have e0 : ∀ l : Fin 128, join2 h agg ⟨l.val, by omega⟩ = h l := fun l => by
    unfold join2; rw [dif_pos (show l.val < 128 from l.isLt)]
  have e1 : ∀ l : Fin 128, join2 h agg ⟨128 + l.val, by omega⟩ = agg l := fun l => by
    unfold join2
    rw [dif_neg (show ¬ 128 + l.val < 128 by omega)]
    exact congrArg agg (Fin.ext (by show 128 + l.val - 128 = l.val; omega))
  simp only [e0, e1]

end Cert.NetSpec

end
-- ==== Proof.RefNet.lean ====
/-
  The reference program read row by row. Three of its stages — the edge message, the clipped coordinate weight of an
  edge, the new features of a node — are, at an index, the row-level functions of the specification applied to rows
  of earlier stages. Each layer is read once: a product with a weight matrix is a sum over the contracted axis, a
  bias broadcast along the rows is the bias entry, a concatenation along the columns is the joined row, and the
  activation x · 1/(1 + e^(-x)) written out in negate, exponential, add and divide is the specification's. The first
  layer of each network multiplies a joined row by one tall matrix; the specification's partial products over the
  matrix's row blocks are the same sum split at the joins.
-/
import proofs.«171544_j47828755808708_2_alg».proof.Proof.Gen.ReferenceIdeal.Read
import proofs.«171544_j47828755808708_2_alg».proof.Proof.NetSpec
import Idealize.ShloMosaic.Lib.Pipeline.Value
import Idealize.ShloMosaic.Lib.ValueIdx
import Idealize.ShloMosaic.PureOps.Ideal.Laws

noncomputable section

namespace Cert.ReferenceIdeal.RefNet

open Cert.ReferenceIdeal Cert.ReferenceIdeal.Read Idealize.ShloMosaic Idealize.ShloMosaic.ValueIdx Cert.NetSpec

/-! ## The activation

The reference spells x · 1/(1 + e^(-x)) with the constant one given as its f32 word; on the extended reals that is
the activation of the specification once the word is read as the number one. -/

/-- The f32 word 0x3F800000 denotes the number one. -/
theorem one_word : Ideal.ofBits .f32 0x3F800000#32 = 1 := by
  rw [show (1 : EReal) = ((1 : ℝ) : EReal) by norm_cast]
  simp [Ideal.ofBits, Ideal.ieee, -EReal.coe_mul]; norm_num

/-- negate, exponential, one plus, one over, times x: the activation. -/
theorem silu_host (x : Ideal .f32) :
    FloatOps.mulf x (FloatOps.hostDivf (FloatOps.ofBits (F := Ideal) .f32 0x3F800000#32)
      (FloatOps.addf (FloatOps.ofBits (F := Ideal) .f32 0x3F800000#32)
        (FloatOps.hostUnary .exp (FloatOps.hostNegf x)))) = silu x := by
  simp only [Ideal.ofBits_def, Ideal.mulf_def, Ideal.hostDivf_def, Ideal.addf_def, Ideal.hostUnary_exp_def,
    Ideal.hostNegf_def, Ideal.negf_def]
  rw [one_word]
  rfl

/-! ## Rows laid end to end

A concatenation along the second axis, read at row e and column k, is the piece whose span of columns holds k,
read at row e and at k less the widths of the pieces before it. -/

/-- Four pieces of widths 128, 128, 51 and 1: the row of the result is the four rows joined. -/
theorem concat4_apply (A B : (⟨2, ![800000, 128]⟩ : Shape).Idx → EReal) (C : (⟨2, ![800000, 51]⟩ : Shape).Idx → EReal)
    (D : (⟨2, ![800000, 1]⟩ : Shape).Idx → EReal)
    (h : Shape.Concatenates [(⟨2, ![800000, 128]⟩ : Shape), ⟨2, ![800000, 128]⟩, ⟨2, ![800000, 51]⟩, ⟨2, ![800000, 1]⟩]
      ⟨2, ![800000, 308]⟩ 1) (e : Fin 800000) (k : Fin 308) :
    concatenate (⟨2, ![800000, 308]⟩ : Shape) 1 [⟨⟨2, ![800000, 128]⟩, A⟩, ⟨⟨2, ![800000, 128]⟩, B⟩, ⟨⟨2, ![800000, 51]⟩, C⟩,
        ⟨⟨2, ![800000, 1]⟩, D⟩] h (ix2 e k)
      = join4 (fun k => A (ix2 e k)) (fun k => B (ix2 e k)) (fun k => C (ix2 e k)) (D (ix2 e (0 : Fin 1))) k := by
  unfold join4
  by_cases h₁ : k.val < 128
  · rw [dif_pos h₁]
    refine concatenate_apply_piece _ _ _ (ix2 e k) 0 (by simp) _ A rfl rfl 0 rfl (ix2 e ⟨k.val, h₁⟩)
      (fun b => match b with
        | ⟨0, _⟩ => fun _ => rfl
        | ⟨1, _⟩ => fun hb => absurd rfl hb) ?_
    show 0 + k.val = k.val
    omega
  · rw [dif_neg h₁]
    by_cases h₂ : k.val < 256
    · rw [dif_pos h₂]
      refine concatenate_apply_piece _ _ _ (ix2 e k) 1 (by simp) _ B rfl rfl 128 rfl (ix2 e ⟨k.val - 128, by omega⟩)
        (fun b => match b with
          | ⟨0, _⟩ => fun _ => rfl
          | ⟨1, _⟩ => fun hb => absurd rfl hb) ?_
      show 128 + (k.val - 128) = k.val
      omega
    · rw [dif_neg h₂]
      by_cases h₃ : k.val < 307
      · rw [dif_pos h₃]
        refine concatenate_apply_piece _ _ _ (ix2 e k) 2 (by simp) _ C rfl rfl 256 rfl (ix2 e ⟨k.val - 256, by omega⟩)
          (fun b => match b with
            | ⟨0, _⟩ => fun _ => rfl
            | ⟨1, _⟩ => fun hb => absurd rfl hb) ?_
        show 256 + (k.val - 256) = k.val
        omega
      · rw [dif_neg h₃]
        refine concatenate_apply_piece _ _ _ (ix2 e k) 3 (by simp) _ D rfl rfl 307 rfl (ix2 e (0 : Fin 1))
          (fun b => match b with
            | ⟨0, _⟩ => fun _ => rfl
            | ⟨1, _⟩ => fun hb => absurd rfl hb) ?_
        show 307 + 0 = k.val
        have := k.isLt
        omega

/-- Two pieces of width 128: the row of the result is the two rows joined. -/
theorem concat2_apply (A B : (⟨2, ![50000, 128]⟩ : Shape).Idx → EReal)
    (h : Shape.Concatenates [(⟨2, ![50000, 128]⟩ : Shape), ⟨2, ![50000, 128]⟩] ⟨2, ![50000, 256]⟩ 1)
    (n : Fin 50000) (l : Fin 256) :
    concatenate (⟨2, ![50000, 256]⟩ : Shape) 1 [⟨⟨2, ![50000, 128]⟩, A⟩, ⟨⟨2, ![50000, 128]⟩, B⟩] h (ix2 n l)
      = join2 (fun k => A (ix2 n k)) (fun k => B (ix2 n k)) l := by
  unfold join2
  by_cases h₁ : l.val < 128
  · rw [dif_pos h₁]
    refine concatenate_apply_piece _ _ _ (ix2 n l) 0 (by simp) _ A rfl rfl 0 rfl (ix2 n ⟨l.val, h₁⟩)
      (fun b => match b with
        | ⟨0, _⟩ => fun _ => rfl
        | ⟨1, _⟩ => fun hb => absurd rfl hb) ?_
    show 0 + l.val = l.val
    omega
  · rw [dif_neg h₁]
    refine concatenate_apply_piece _ _ _ (ix2 n l) 1 (by simp) _ B rfl rfl 128 rfl (ix2 n ⟨l.val - 128, by omega⟩)
      (fun b => match b with
        | ⟨0, _⟩ => fun _ => rfl
        | ⟨1, _⟩ => fun hb => absurd rfl hb) ?_
    show 128 + (l.val - 128) = l.val
    omega

/-! ## One edge -/

/-- The radial entry of edge e: the square root of the sum of the squared coordinate differences, plus eps. The
    row sum starts from the zero word, which adds nothing. -/
theorem radial_apply (x1 : (⟨S2x800000, .i32⟩ : BufTy).Contents (Elt Ideal)) (x3 : (⟨S50000x3, .f32⟩ : BufTy).Contents (Elt Ideal)) (e : Fin 800000) :
    val_main_v24 (F := Ideal) x1 x3 (ix2 e (0 : Fin 1))
      = radial (fun k => val_main_v18 (F := Ideal) x1 x3 (ix2 e k)) (Ideal.ofBits .f32 0x322BCC77#32) := by
  rw [val_main_v24_apply, val_main_v22_apply, val_main_v21_apply, val_main_v20_apply, val_main_v23_apply,
    val_main_cst_3_apply, val_main_cst_apply]
  have hi : ∀ k : Fin 3, idx_main_v20 (idx_main_v21 (ix2 e (0 : Fin 1))) k = ix2 e k := fun k =>
    funext fun a => Fin.ext (by match a with | ⟨0, _⟩ => rfl | ⟨1, _⟩ => rfl)
  simp only [val_main_v19_apply, hi, Ideal.ofBits_def, Ideal.addf_def, Ideal.mulf_def, Ideal.hostUnary_sqrt_def,
    Ideal.ofBits_zero_f32, zero_add]
  rfl

/-- The joined row of edge e: source features, target features, attributes, radial entry. -/
theorem cat_edge_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (e : Fin 800000) (k : Fin 308) :
    val_main_v39 (F := Ideal) x0 x1 x2 x3 (ix2 e k)
      = join4 (fun k => val_main_v31 (F := Ideal) x0 x1 (ix2 e k)) (fun k => val_main_v38 (F := Ideal) x0 x1 (ix2 e k))
          (fun k => x2 (ix2 e k)) (val_main_v24 (F := Ideal) x1 x3 (ix2 e (0 : Fin 1))) k := by
  unfold val_main_v39
  exact concat4_apply _ _ _ _ _ e k

/-- First edge layer before the activation: the joined row against the 308-row weight matrix plus the bias is the
    four partial products of the specification. -/
theorem pre_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (e : Fin 800000) (j : Fin 128) :
    val_main_v43 (F := Ideal) x0 x1 x2 x3 x4 x5 (ix2 e j)
      = edgePre (fun k => val_main_v31 (F := Ideal) x0 x1 (ix2 e k)) (fun k => val_main_v38 (F := Ideal) x0 x1 (ix2 e k))
          (fun k => x2 (ix2 e k)) (fun k => val_main_v18 (F := Ideal) x1 x3 (ix2 e k)) (Ideal.ofBits .f32 0x322BCC77#32)
          (fun k j => x4 (ix2 (⟨k.val, by omega⟩ : Fin 308) j)) (fun k j => x4 (ix2 (⟨128 + k.val, by omega⟩ : Fin 308) j))
          (fun k j => x4 (ix2 (⟨256 + k.val, by omega⟩ : Fin 308) j)) (fun j => x4 (ix2 (⟨307, by omega⟩ : Fin 308) j))
          (fun j => x5 (ix1 j)) j := by
  rw [val_main_v43_apply, val_main_v40_apply, val_main_v42_apply, val_main_v41_apply]
  have hl : ∀ k : Fin 308, lidx_main_v40 (ix2 e j) k = ix2 e k := fun k =>
    funext fun a => Fin.ext (by match a with | ⟨0, _⟩ => rfl | ⟨1, _⟩ => rfl)
  have hr : ∀ k : Fin 308, ridx_main_v40 (ix2 e j) k = ix2 k j := fun k =>
    funext fun a => Fin.ext (by match a with | ⟨0, _⟩ => rfl | ⟨1, _⟩ => rfl)
  have hb : idx_main_v41 (idx_main_v42 (ix2 e j)) = ix1 j :=
    funext fun a => Fin.ext (by match a with | ⟨0, _⟩ => rfl)
  simp only [hl, hr, hb, cat_edge_apply, radial_apply, Ideal.addf_def]
  exact (edgePre_of_rows _ _ _ _ _ (fun k j => x4 (ix2 k j)) (fun j => x5 (ix1 j)) j).symm

/-- The first activation. -/
theorem act1_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (i : S800000x128.Idx) :
    val_main_v44 (F := Ideal) x0 x1 x2 x3 x4 x5 i = silu (val_main_v43 (F := Ideal) x0 x1 x2 x3 x4 x5 i) := by
  rw [val_main_v44_apply, val_main_call0_v5_apply, val_main_call0_v4_apply, val_main_call0_cst_0_apply,
    val_main_call0_v3_apply, val_main_call0_v2_apply, val_main_call0_cst_apply, val_main_call0_v1_apply, val_main_call0_v0_apply]
  exact silu_host _

/-- The second edge layer before its activation. -/
theorem lin2_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) (j : Fin 128) :
    val_main_v48 (F := Ideal) x0 x1 x2 x3 x4 x5 x6 x7 (ix2 e j)
      = dense (fun k => val_main_v44 (F := Ideal) x0 x1 x2 x3 x4 x5 (ix2 e k)) (fun k j => x6 (ix2 k j)) (fun j => x7 (ix1 j)) j := by
  rw [val_main_v48_apply, val_main_v45_apply, val_main_v47_apply, val_main_v46_apply]
  have hl : ∀ k : Fin 128, lidx_main_v45 (ix2 e j) k = ix2 e k := fun k =>
    funext fun a => Fin.ext (by match a with | ⟨0, _⟩ => rfl | ⟨1, _⟩ => rfl)
  have hr : ∀ k : Fin 128, ridx_main_v45 (ix2 e j) k = ix2 k j := fun k =>
    funext fun a => Fin.ext (by match a with | ⟨0, _⟩ => rfl | ⟨1, _⟩ => rfl)
  have hb : idx_main_v46 (idx_main_v47 (ix2 e j)) = ix1 j :=
    funext fun a => Fin.ext (by match a with | ⟨0, _⟩ => rfl)
  simp only [hl, hr, hb, Ideal.addf_def]
  rfl

/-- The second activation. -/
theorem act2_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (i : S800000x128.Idx) :
    val_main_v49 (F := Ideal) x0 x1 x2 x3 x4 x5 x6 x7 i = silu (val_main_v48 (F := Ideal) x0 x1 x2 x3 x4 x5 x6 x7 i) := by
  rw [val_main_v49_apply, val_main_call1_v5_apply, val_main_call1_v4_apply, val_main_call1_cst_0_apply,
    val_main_call1_v3_apply, val_main_call1_v2_apply, val_main_call1_cst_apply, val_main_call1_v1_apply, val_main_call1_v0_apply]
  exact silu_host _

/-- The reference's second activation output (the edge message, buffer %49) at edge e, feature j. -/
theorem msg_apply (x0 : (⟨S50000x128, .f32⟩ : BufTy).Contents (Elt Ideal)) (x1 : (⟨S2x800000, .i32⟩ : BufTy).Contents (Elt Ideal))
    (x2 : (⟨S800000x51, .f32⟩ : BufTy).Contents (Elt Ideal)) (x3 : (⟨S50000x3, .f32⟩ : BufTy).Contents (Elt Ideal))
    (x4 : (⟨S308x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (e : Fin 800000) (j : Fin 128) :
    val_main_v49 (F := Ideal) x0 x1 x2 x3 x4 x5 x6 x7 (ix2 e j)
      = edgeMsg (edgePre (fun k => val_main_v31 (F := Ideal) x0 x1 (ix2 e k)) (fun k => val_main_v38 (F := Ideal) x0 x1 (ix2 e k))
            (fun k => x2 (ix2 e k)) (fun k => val_main_v18 (F := Ideal) x1 x3 (ix2 e k)) (Ideal.ofBits .f32 0x322BCC77#32)
            (fun k j => x4 (ix2 (⟨k.val, by omega⟩ : Fin 308) j)) (fun k j => x4 (ix2 (⟨128 + k.val, by omega⟩ : Fin 308) j))
            (fun k j => x4 (ix2 (⟨256 + k.val, by omega⟩ : Fin 308) j)) (fun j => x4 (ix2 (⟨307, by omega⟩ : Fin 308) j))
            (fun j => x5 (ix1 j)))
          (fun k j => x6 (ix2 k j)) (fun j => x7 (ix1 j)) j := by
  rw [act2_apply, lin2_apply]
  simp only [act1_apply, pre_apply]
  rfl

/-! ## The coordinate weight of one edge -/

/-- The third edge layer before its activation, from the message row. -/
theorem lin3_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (e : Fin 800000) (j : Fin 128) :
    val_main_v53 (F := Ideal) x0 x1 x2 x3 x4 x5 x6 x7 x8 x9 (ix2 e j)
      = dense (fun k => val_main_v49 (F := Ideal) x0 x1 x2 x3 x4 x5 x6 x7 (ix2 e k)) (fun k j => x8 (ix2 k j)) (fun j => x9 (ix1 j)) j := by
  rw [val_main_v53_apply, val_main_v50_apply, val_main_v52_apply, val_main_v51_apply]
  have hl : ∀ k : Fin 128, lidx_main_v50 (ix2 e j) k = ix2 e k := fun k =>
    funext fun a => Fin.ext (by match a with | ⟨0, _⟩ => rfl | ⟨1, _⟩ => rfl)
  have hr : ∀ k : Fin 128, ridx_main_v50 (ix2 e j) k = ix2 k j := fun k =>
    funext fun a => Fin.ext (by match a with | ⟨0, _⟩ => rfl | ⟨1, _⟩ => rfl)
  have hb : idx_main_v51 (idx_main_v52 (ix2 e j)) = ix1 j :=
    funext fun a => Fin.ext (by match a with | ⟨0, _⟩ => rfl)
  simp only [hl, hr, hb, Ideal.addf_def]
  rfl

/-- The third activation. -/
theorem act3_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (i : S800000x128.Idx) :
    val_main_v54 (F := Ideal) x0 x1 x2 x3 x4 x5 x6 x7 x8 x9 i = silu (val_main_v53 (F := Ideal) x0 x1 x2 x3 x4 x5 x6 x7 x8 x9 i) := by
  rw [val_main_v54_apply, val_main_call2_v5_apply, val_main_call2_v4_apply, val_main_call2_cst_0_apply,
    val_main_call2_v3_apply, val_main_call2_v2_apply, val_main_call2_cst_apply, val_main_call2_v1_apply, val_main_call2_v0_apply]
  exact silu_host _

/-- The reference's clipped coordinate weight (buffer %56) at edge e, from the message row (buffer %49). -/
theorem coord_apply (x0 : (⟨S50000x128, .f32⟩ : BufTy).Contents (Elt Ideal)) (x1 : (⟨S2x800000, .i32⟩ : BufTy).Contents (Elt Ideal))
    (x2 : (⟨S800000x51, .f32⟩ : BufTy).Contents (Elt Ideal)) (x3 : (⟨S50000x3, .f32⟩ : BufTy).Contents (Elt Ideal))
    (x4 : (⟨S308x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x1, .f32⟩ : BufTy).Contents (Elt Ideal)) (e : Fin 800000) :
    val_main_v56 (F := Ideal) x0 x1 x2 x3 x4 x5 x6 x7 x8 x9 x10 (ix2 e (0 : Fin 1))
      = edgeCoord (fun k => val_main_v49 (F := Ideal) x0 x1 x2 x3 x4 x5 x6 x7 (ix2 e k))
          (fun k j => x8 (ix2 k j)) (fun j => x9 (ix1 j)) (fun k => x10 (ix2 k (0 : Fin 1)))
          (Ideal.ofBits .f32 0xBF800000#32) (Ideal.ofBits .f32 0x3F800000#32) := by
  rw [val_main_v56_apply, val_main_call3_v4_apply, val_main_call3_v3_apply, val_main_cst_9_apply,
    val_main_call3_v2_apply, val_main_call3_v1_apply, val_main_call3_v0_apply, val_main_cst_8_apply, val_main_v55_apply]
  have hl : ∀ k : Fin 128, lidx_main_v55 (ix2 e (0 : Fin 1)) k = ix2 e k := fun k =>
    funext fun a => Fin.ext (by match a with | ⟨0, _⟩ => rfl | ⟨1, _⟩ => rfl)
  have hr : ∀ k : Fin 128, ridx_main_v55 (ix2 e (0 : Fin 1)) k = ix2 k (0 : Fin 1) := fun k =>
    funext fun a => Fin.ext (by match a with | ⟨0, _⟩ => rfl | ⟨1, _⟩ => rfl)
  simp only [hl, hr, act3_apply, lin3_apply, Ideal.ofBits_def, Ideal.minimumf_def, Ideal.maximumf_def]
  rfl

/-! ## One node -/

/-- The joined row of node n: its features, then its aggregated messages. -/
theorem cat_node_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (n : Fin 50000) (l : Fin 256) :
    val_main_v66 (F := Ideal) x0 x1 x2 x3 x4 x5 x6 x7 (ix2 n l)
      = join2 (fun k => x0 (ix2 n k)) (fun k => val_main_v65 (F := Ideal) x0 x1 x2 x3 x4 x5 x6 x7 (ix2 n k)) l := by
  unfold val_main_v66
  exact concat2_apply _ _ _ n l

/-- First node layer before the activation: the joined row against the 256-row weight matrix is the two partial
    products of the specification. -/
theorem first_node_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x11 : (⟨S256x128, .f32⟩ : BufTy).Contents (Elt Ideal)) (x12 : (⟨S128, .f32⟩ : BufTy).Contents (Elt Ideal)) (n : Fin 50000) (k : Fin 128) :
    val_main_v70 (F := Ideal) x0 x1 x2 x3 x4 x5 x6 x7 x11 x12 (ix2 n k)
      = ((∑ l : Fin 128, x0 (ix2 n l) * x11 (ix2 (⟨l.val, by omega⟩ : Fin 256) k))
          + ∑ l : Fin 128, val_main_v65 (F := Ideal) x0 x1 x2 x3 x4 x5 x6 x7 (ix2 n l) * x11 (ix2 (⟨128 + l.val, by omega⟩ : Fin 256) k))
        + x12 (ix1 k) := by
  rw [val_main_v70_apply, val_main_v67_apply, val_main_v69_apply, val_main_v68_apply]
  have hl : ∀ l : Fin 256, lidx_main_v67 (ix2 n k) l = ix2 n l := fun l =>
    funext fun a => Fin.ext (by match a with | ⟨0, _⟩ => rfl | ⟨1, _⟩ => rfl)
  have hr : ∀ l : Fin 256, ridx_main_v67 (ix2 n k) l = ix2 l k := fun l =>
    funext fun a => Fin.ext (by match a with | ⟨0, _⟩ => rfl | ⟨1, _⟩ => rfl)
  have hb : idx_main_v68 (idx_main_v69 (ix2 n k)) = ix1 k :=
    funext fun a => Fin.ext (by match a with | ⟨0, _⟩ => rfl)
  simp only [hl, hr, hb, cat_node_apply, Ideal.addf_def]
  exact congrArg (· + x12 (ix1 k))
    (node_first_of_rows (fun l => x0 (ix2 n l)) (fun l => val_main_v65 (F := Ideal) x0 x1 x2 x3 x4 x5 x6 x7 (ix2 n l))
      (fun l k => x11 (ix2 l k)) k).symm

/-- The node network's activation. -/
theorem act5_apply (x0 : (⟨S50000x128, .f32⟩ : BufTy).Contents (Elt Ideal)) (x1 : (⟨S2x800000, .i32⟩ : BufTy).Contents (Elt Ideal)) (x2 : (⟨S800000x51, .f32⟩ : BufTy).Contents (Elt Ideal)) (x3 : (⟨S50000x3, .f32⟩ : BufTy).Contents (Elt Ideal)) (x4 : (⟨S308x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x11 : (⟨S256x128, .f32⟩ : BufTy).Contents (Elt Ideal)) (x12 : (⟨S128, .f32⟩ : BufTy).Contents (Elt Ideal)) (i : S50000x128.Idx) :
    val_main_v71 (F := Ideal) x0 x1 x2 x3 x4 x5 x6 x7 x11 x12 i = silu (val_main_v70 (F := Ideal) x0 x1 x2 x3 x4 x5 x6 x7 x11 x12 i) := by
  rw [val_main_v71_apply, val_main_call4_v5_apply, val_main_call4_v4_apply, val_main_call4_cst_0_apply,
    val_main_call4_v3_apply, val_main_call4_v2_apply, val_main_call4_cst_apply, val_main_call4_v1_apply, val_main_call4_v0_apply]
  exact silu_host _

/-- The reference's new node features (buffer %76) at node n, feature j, from the aggregated messages (buffer %65). -/
theorem node_apply (x0 : (⟨S50000x128, .f32⟩ : BufTy).Contents (Elt Ideal)) (x1 : (⟨S2x800000, .i32⟩ : BufTy).Contents (Elt Ideal))
    (x2 : (⟨S800000x51, .f32⟩ : BufTy).Contents (Elt Ideal)) (x3 : (⟨S50000x3, .f32⟩ : BufTy).Contents (Elt Ideal))
    (x4 : (⟨S308x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x11 : (⟨S256x128, .f32⟩ : BufTy).Contents (Elt Ideal)) (x12 : (⟨S128, .f32⟩ : BufTy).Contents (Elt Ideal))
    (x13 : (⟨S128x128, .f32⟩ : BufTy).Contents (Elt Ideal)) (x14 : (⟨S128, .f32⟩ : BufTy).Contents (Elt Ideal))
    (n : Fin 50000) (j : Fin 128) :
    val_main_v76 (F := Ideal) x0 x1 x2 x3 x4 x5 x6 x7 x11 x12 x13 x14 (ix2 n j)
      = nodeOut (fun k => x0 (ix2 n k)) (fun k => val_main_v65 (F := Ideal) x0 x1 x2 x3 x4 x5 x6 x7 (ix2 n k))
          (fun l k => x11 (ix2 (⟨l.val, by omega⟩ : Fin 256) k)) (fun l k => x11 (ix2 (⟨128 + l.val, by omega⟩ : Fin 256) k))
          (fun k => x12 (ix1 k)) (fun k j => x13 (ix2 k j)) (fun j => x14 (ix1 j)) j := by
  rw [val_main_v76_apply, val_main_v75_apply, val_main_v72_apply, val_main_v74_apply, val_main_v73_apply]
  have hl : ∀ k : Fin 128, lidx_main_v72 (ix2 n j) k = ix2 n k := fun k =>
    funext fun a => Fin.ext (by match a with | ⟨0, _⟩ => rfl | ⟨1, _⟩ => rfl)
  have hr : ∀ k : Fin 128, ridx_main_v72 (ix2 n j) k = ix2 k j := fun k =>
    funext fun a => Fin.ext (by match a with | ⟨0, _⟩ => rfl | ⟨1, _⟩ => rfl)
  have hb : idx_main_v73 (idx_main_v74 (ix2 n j)) = ix1 j :=
    funext fun a => Fin.ext (by match a with | ⟨0, _⟩ => rfl)
  simp only [hl, hr, hb, act5_apply, first_node_apply, Ideal.addf_def]
  rfl

end Cert.ReferenceIdeal.RefNet

end
-- ==== Proof.NodeRegion.lean ====
/-
  The node network's result array after its grid of 10 points.
  Point t of the grid works on nodes 5000·t … 5000·t + 4999: the node features, the aggregated messages and the
  result are cut into blocks of 5000 rows and point t takes block t of each, while the five weight and bias operands
  are taken whole at every point. The body's arithmetic, read at an entry, is the specification's row function of
  that node's two rows: two partial products and a bias, the activation, one more dense layer, and the node's old
  features added back. So what point t writes back is block t of one function of the arrays the grid finds, and as
  every row lies in the block numbered by its quotient by 5000, the result array ends holding that function.
-/
import proofs.«171544_j47828755808708_2_alg».proof.Proof.Gen.KernelIdeal.Frame
import proofs.«171544_j47828755808708_2_alg».proof.Proof.NetSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeRegion

open Cert.KernelIdeal Cert.KernelIdeal.Gen Idealize.ShloMosaic Idealize.ShloMosaic.TcCoe Idealize.ShloMosaic.ValueIdx Idealize.SL.Sem Cert.NetSpec

/-! ## One matrix product of the body, read at an entry -/

/-- In the body's matrix product the left operand is read at the output's row -/
theorem lhs_coord0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- and at the summation index as its column; -/
theorem lhs_coord1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- the right operand at the summation index as its row -/
theorem rhs_coord0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- and at the output's column. -/
theorem rhs_coord1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's matrix product (rows of a 5000-row block against a 128 × 128 weight matrix, into a zero
    accumulator) at row r, column j: the sum over the shared axis of the products of the two entries. -/
theorem matmul_row (lhs : FVec Ideal S5000x128 .bf16) (rhs : FVec Ideal S128x128 .bf16) (r : Fin 5000) (j : Fin 128) :
    matmul (F := Ideal) dot_S5000x128_S128x128_S5000x128_1_0_0_1_n_n none lhs rhs (constant S5000x128 .f32 0x00000000#32) (ix2 r j)
      = ∑ k : Fin 128, lhs (ix2 r k) * rhs (ix2 k j) := by
  refine (Ideal.matmul_constant_zero_apply dot_S5000x128_S128x128_S5000x128_1_0_0_1_n_n none lhs rhs (ix2 r j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j)
      ((ValueIdx.contrEquiv1 dot_S5000x128_S128x128_S5000x128_1_0_0_1_n_n 128 rfl rfl).symm k) = ix2 r k :=
    funext fun a => Fin.ext (by
      match a with
      | ⟨0, _⟩ => exact lhs_coord0 _ _
      | ⟨1, _⟩ => exact (lhs_coord1 _ _).trans hk)
  have er : dot_S5000x128_S128x128_S5000x128_1_0_0_1_n_n.rhsIdx (ix2 r j)
      ((ValueIdx.contrEquiv1 dot_S5000x128_S128x128_S5000x128_1_0_0_1_n_n 128 rfl rfl).symm k) = ix2 k j :=
    funext fun a => Fin.ext (by
      match a with
      | ⟨0, _⟩ => exact (rhs_coord0 _ _).trans hk
      | ⟨1, _⟩ => exact rhs_coord1 _ _)
  rw [el, er]

/-! ## The body's arithmetic at an entry -/

/-- The first layer before the activation, at row r, column k: the two partial products and the bias row. -/
theorem first_layer (x0 x1 : FVec Ideal S5000x128 .f32) (x2 x3 : FVec Ideal S128x128 .bf16) (x4 : FVec Ideal S1x128 .f32)
    (r : Fin 5000) (k : Fin 128) :
    addf (addf (matmul (F := Ideal) dot_S5000x128_S128x128_S5000x128_1_0_0_1_n_n none (truncf .bf16 x0 bitsLt_bf16_f32) x2
                  (constant S5000x128 .f32 0x00000000#32))
               (matmul (F := Ideal) dot_S5000x128_S128x128_S5000x128_1_0_0_1_n_n none (truncf .bf16 x1 bitsLt_bf16_f32) x3
                  (constant S5000x128 .f32 0x00000000#32)))
         (broadcastTo S5000x128 x4 broadcasts_S1x128_S5000x128) (ix2 r k)
      = ((∑ l : Fin 128, x0 (ix2 r l) * x2 (ix2 l k)) + ∑ l : Fin 128, x1 (ix2 r l) * x3 (ix2 l k))
          + x4 (ix2 (0 : Fin 1) k) := by
  rw [addf_apply, addf_apply, matmul_row, matmul_row, broadcastTo_1b_ab_apply]
  rfl

/-- The second layer on top of any first-layer block A, with the residual: at row r, column j. -/
theorem second_layer (x0 A : FVec Ideal S5000x128 .f32) (x5 : FVec Ideal S128x128 .bf16) (x6 : FVec Ideal S1x128 .f32)
    (r : Fin 5000) (j : Fin 128) :
    addf x0 (addf (matmul (F := Ideal) dot_S5000x128_S128x128_S5000x128_1_0_0_1_n_n none
                      (truncf .bf16 (mulf A (logistic A)) bitsLt_bf16_f32) x5 (constant S5000x128 .f32 0x00000000#32))
                  (broadcastTo S5000x128 x6 broadcasts_S1x128_S5000x128)) (ix2 r j)
      = x0 (ix2 r j) + ((∑ k : Fin 128, silu (A (ix2 r k)) * x5 (ix2 k j)) + x6 (ix2 (0 : Fin 1) j)) := by
  rw [addf_apply, addf_apply, matmul_row, broadcastTo_1b_ab_apply]
  rfl

/-- The node kernel's stored value at row r, lane j of its block, from the rows of the loaded blocks. -/
theorem node_payload (x0 x1 : FVec Ideal S5000x128 .f32) (x2 x3 : FVec Ideal S128x128 .bf16) (x4 : FVec Ideal S1x128 .f32)
    (x5 : FVec Ideal S128x128 .bf16) (x6 : FVec Ideal S1x128 .f32) (r : Fin 5000) (j : Fin 128) :
    k1_pay1 (F := Ideal) x0 x1 x2 x3 x4 x5 x6 (ix2 r j)
      = nodeOut (fun k => x0 (ix2 r k)) (fun k => x1 (ix2 r k)) (fun l k => x2 (ix2 l k)) (fun l k => x3 (ix2 l k))
          (fun k => x4 (ix2 (0 : Fin 1) k)) (fun k j => x5 (ix2 k j)) (fun j => x6 (ix2 (0 : Fin 1) j)) j := by
  unfold k1_pay1
  simp only [shapeCast_self]
  refine (second_layer x0 _ x5 x6 r j).trans ?_
  simp only [nodeOut, dense, first_layer]

/-! ## From the blocks to the whole array -/

variable (V : (c : Dev nD) → (b : Ref sig .tc) → Buf (Elt Ideal) ((c : Thread nD τ).loc b))

theorem zero_offsets : (![0, 0] : Fin 2 → Nat) = fun _ => 0 := funext fun a => by fin_cases a <;> rfl

/-- Node n's new features, lane j, from the arrays the region finds: the two big operands' rows n and the five
    weight operands whole. -/
def nodeRow (c : Dev nD) (n : Fin 50000) (j : Fin 128) : EReal :=
  nodeOut (fun k => V c main_arg0 (ix2 n k)) (fun k => V c main_v58 (ix2 n k)) (fun l k => V c main_v60 (ix2 l k))
    (fun l k => V c main_v62 (ix2 l k)) (fun k => V c main_v63 (ix2 (0 : Fin 1) k)) (fun k j => V c main_v64 (ix2 k j))
    (fun j => V c main_v65 (ix2 (0 : Fin 1) j)) j

/-- The whole result array as one function of its index. -/
def nodeArr (c : Dev nD) : S50000x128.Idx → EReal :=
  fun i => nodeRow V c ⟨(i 0).val, idx2_lt0 i⟩ ⟨(i 1).val, idx2_lt1 i⟩

/-- The index maps over the ten grid points: the two big operands and the result move one block of rows per point,
    the five weight operands stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Point t's block of the first big operand is its rows 5000·t … 5000·t + 4999. -/
theorem blk0_apply (c : Dev nD) (t : Fin cfg1.N) (r : Fin 5000) (k : Fin 128) (n : Fin 50000)
    (hn : n.val = 5000 * t.val + r.val) :
    (iblk1 V c 0 t : FVec Ideal S5000x128 .f32) (ix2 r k) = V c main_arg0 (ix2 n k) := by
  show V c main_arg0 (((cfg1.win 0).blk t).view.emb (ix2 r k)) = V c main_arg0 (ix2 n k)
  obtain ⟨e0, e1, -⟩ := idx_facts t
  refine congrArg (V c main_arg0) (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * k.val = k.val; rw [e1]; omega

/-- The same for the second big operand. -/
theorem blk1_apply (c : Dev nD) (t : Fin cfg1.N) (r : Fin 5000) (k : Fin 128) (n : Fin 50000)
    (hn : n.val = 5000 * t.val + r.val) :
    (iblk1 V c 1 t : FVec Ideal S5000x128 .f32) (ix2 r k) = V c main_v58 (ix2 n k) := by
  show V c main_v58 (((cfg1.win 1).blk t).view.emb (ix2 r k)) = V c main_v58 (ix2 n k)
  obtain ⟨-, -, e0, e1, -⟩ := idx_facts t
  refine congrArg (V c main_v58) (funext fun a => Fin.ext ?_)
  match a with
  | ⟨0, _⟩ => show win1_1.index t (0 : Fin 2) * 5000 + 1 * r.val = n.val; rw [e0, hn]; omega
  | ⟨1, _⟩ => show win1_1.index t (1 : Fin 2) * 128 + 1 * k.val = k.val; rw [e1]; omega

/-- Each weight operand's block, at every point, is the whole operand. -/
theorem blk2_apply (c : Dev nD) (t : Fin cfg1.N) (l k : Fin 128) :
    (iblk1 V c 2 t : FVec Ideal S128x128 .bf16) (ix2 l k) = V c main_v60 (ix2 l k) := by
  show V c main_v60 (((cfg1.win 2).blk t).view.emb (ix2 l k)) = V c main_v60 (ix2 l k)
  obtain ⟨-, -, -, -, e0, e1, -⟩ := idx_facts t
  refine congrArg (V c main_v60) (funext fun a => Fin.ext ?_)
  match a with
  | ⟨0, _⟩ => show win1_2.index t (0 : Fin 2) * 128 + 1 * l.val = l.val; rw [e0]; omega
  | ⟨1, _⟩ => show win1_2.index t (1 : Fin 2) * 128 + 1 * k.val = k.val; rw [e1]; omega

theorem blk3_apply (c : Dev nD) (t : Fin cfg1.N) (l k : Fin 128) :
    (iblk1 V c 3 t : FVec Ideal S128x128 .bf16) (ix2 l k) = V c main_v62 (ix2 l k) := by
  show V c main_v62 (((cfg1.win 3).blk t).view.emb (ix2 l k)) = V c main_v62 (ix2 l k)
  obtain ⟨-, -, -, -, -, -, e0, e1, -⟩ := idx_facts t
  refine congrArg (V c main_v62) (funext fun a => Fin.ext ?_)
  match a with
  | ⟨0, _⟩ => show win1_3.index t (0 : Fin 2) * 128 + 1 * l.val = l.val; rw [e0]; omega
  | ⟨1, _⟩ => show win1_3.index t (1 : Fin 2) * 128 + 1 * k.val = k.val; rw [e1]; omega

theorem blk4_apply (c : Dev nD) (t : Fin cfg1.N) (k : Fin 128) :
    (iblk1 V c 4 t : FVec Ideal S1x128 .f32) (ix2 (0 : Fin 1) k) = V c main_v63 (ix2 (0 : Fin 1) k) := by
  show V c main_v63 (((cfg1.win 4).blk t).view.emb (ix2 (0 : Fin 1) k)) = V c main_v63 (ix2 (0 : Fin 1) k)
  obtain ⟨-, -, -, -, -, -, -, -, e0, e1, -⟩ := idx_facts t
  refine congrArg (V c main_v63) (funext fun a => Fin.ext ?_)
  match a with
  | ⟨0, _⟩ => show win1_4.index t (0 : Fin 2) * 1 + 1 * 0 = 0; rw [e0]
  | ⟨1, _⟩ => show win1_4.index t (1 : Fin 2) * 128 + 1 * k.val = k.val; rw [e1]; omega

theorem blk5_apply (c : Dev nD) (t : Fin cfg1.N) (l k : Fin 128) :
    (iblk1 V c 5 t : FVec Ideal S128x128 .bf16) (ix2 l k) = V c main_v64 (ix2 l k) := by
  show V c main_v64 (((cfg1.win 5).blk t).view.emb (ix2 l k)) = V c main_v64 (ix2 l k)
  obtain ⟨-, -, -, -, -, -, -, -, -, -, e0, e1, -⟩ := idx_facts t
  refine congrArg (V c main_v64) (funext fun a => Fin.ext ?_)
  match a with
  | ⟨0, _⟩ => show win1_5.index t (0 : Fin 2) * 128 + 1 * l.val = l.val; rw [e0]; omega
  | ⟨1, _⟩ => show win1_5.index t (1 : Fin 2) * 128 + 1 * k.val = k.val; rw [e1]; omega

theorem blk6_apply (c : Dev nD) (t : Fin cfg1.N) (k : Fin 128) :
    (iblk1 V c 6 t : FVec Ideal S1x128 .f32) (ix2 (0 : Fin 1) k) = V c main_v65 (ix2 (0 : Fin 1) k) := by
  show V c main_v65 (((cfg1.win 6).blk t).view.emb (ix2 (0 : Fin 1) k)) = V c main_v65 (ix2 (0 : Fin 1) k)
  obtain ⟨-, -, -, -, -, -, -, -, -, -, -, -, e0, e1, -⟩ := idx_facts t
  refine congrArg (V c main_v65) (funext fun a => Fin.ext ?_)
  match a with
  | ⟨0, _⟩ => show win1_6.index t (0 : Fin 2) * 1 + 1 * 0 = 0; rw [e0]
  | ⟨1, _⟩ => show win1_6.index t (1 : Fin 2) * 128 + 1 * k.val = k.val; rw [e1]; omega

/-- The spec's row function of point t's blocks at block row r is node 5000·t + r's new features. -/
theorem nodeRow_of_blocks (c : Dev nD) (t : Fin cfg1.N) (r : Fin 5000) (j : Fin 128) (n : Fin 50000)
    (hn : n.val = 5000 * t.val + r.val) :
    nodeOut (fun k => (iblk1 V c 0 t : FVec Ideal S5000x128 .f32) (ix2 r k))
        (fun k => (iblk1 V c 1 t : FVec Ideal S5000x128 .f32) (ix2 r k))
        (fun l k => (iblk1 V c 2 t : FVec Ideal S128x128 .bf16) (ix2 l k))
        (fun l k => (iblk1 V c 3 t : FVec Ideal S128x128 .bf16) (ix2 l k))
        (fun k => (iblk1 V c 4 t : FVec Ideal S1x128 .f32) (ix2 (0 : Fin 1) k))
        (fun k j => (iblk1 V c 5 t : FVec Ideal S128x128 .bf16) (ix2 k j))
        (fun j => (iblk1 V c 6 t : FVec Ideal S1x128 .f32) (ix2 (0 : Fin 1) j)) j
      = nodeRow V c n j := by
  unfold nodeRow
  simp only [blk0_apply V c t r _ n hn, blk1_apply V c t r _ n hn, blk2_apply, blk3_apply, blk4_apply, blk5_apply,
    blk6_apply]

/-- What grid point t writes back is block t of the whole-array function. -/
theorem flushed_eq (c : Dev nD) (t : Fin cfg1.N) :
    (dat1 (F := Ideal) V c).flushed 7 t = ((cfg1.win 7).blk t).view.read (Elt Ideal) (nodeArr V c) := by
  show (cfg1.win 7).cut (grid1.coords t) ((dat1 (F := Ideal) V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  funext y
  obtain ⟨r, j, rfl⟩ : ∃ (r : Fin 5000) (j : Fin 128), y = ix2 r j := ⟨y 0, y 1, eq_ix2 y⟩
  show k1_pay1 (F := Ideal) (iblk1 V c 0 t) (iblk1 V c 1 t) (iblk1 V c 2 t) (iblk1 V c 3 t) (iblk1 V c 4 t)
      (iblk1 V c 5 t) (iblk1 V c 6 t) (ix2 r j) = nodeArr V c (((cfg1.win 7).blk t).view.emb (ix2 r j))
  obtain ⟨-, -, -, -, -, -, -, -, -, -, -, -, -, -, e0, e1⟩ := idx_facts t
  have h0 : (((cfg1.win 7).blk t).view.emb (ix2 r j) 0).val = 5000 * t.val + r.val := by
    show win1_7.index t (0 : Fin 2) * 5000 + 1 * r.val = _
    rw [e0]; omega
  have h1 : (((cfg1.win 7).blk t).view.emb (ix2 r j) 1).val = j.val := by
    show win1_7.index t (1 : Fin 2) * 128 + 1 * j.val = _
    rw [e1]; omega
  refine (node_payload (iblk1 V c 0 t) (iblk1 V c 1 t) (iblk1 V c 2 t) (iblk1 V c 3 t) (iblk1 V c 4 t)
    (iblk1 V c 5 t) (iblk1 V c 6 t) r j).trans ?_
  refine (nodeRow_of_blocks V c t r j ⟨(((cfg1.win 7).blk t).view.emb (ix2 r j) 0).val, idx2_lt0 _⟩ h0).trans ?_
  unfold nodeArr
  exact congrArg (nodeRow V c _) (Fin.ext h1.symm)

/-- An index of the array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v66).slice (win1_7.rect t)).set ↔ _
  rw [View.set_slice_whole, Rect.mem_set_unit]
  exact Iff.rfl

/-- The ten blocks of 5000 rows cover the 50000 rows: row n is in the block of point n / 5000. -/
theorem cover (i : S50000x128.Idx) :
    ∃ t : Fin cfg1.N, (cfg1.win 7).flush t = true ∧ i ∈ ((cfg1.win 7).blk t).view.set := by
  have hN : cfg1.N = 10 := N_1
  have hi0 : (i 0).val < 50000 := idx2_lt0 i
  have hi1 : (i 1).val < 128 := idx2_lt1 i
  have hq : (i 0).val / 5000 < cfg1.N := by rw [hN]; omega
  obtain ⟨-, -, -, -, -, -, -, -, -, -, -, -, -, -, e0, e1⟩ := idx_facts ⟨(i 0).val / 5000, hq⟩
  refine ⟨⟨(i 0).val / 5000, hq⟩, flush1_7 _, ?_⟩
  rw [mem_blk]
  intro a
  match a with
  | ⟨0, _⟩ =>
    show win1_7.index ⟨(i 0).val / 5000, hq⟩ (0 : Fin 2) * 5000 ≤ (i 0).val
      ∧ (i 0).val < win1_7.index ⟨(i 0).val / 5000, hq⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, hq⟩ (1 : Fin 2) * 128 ≤ (i 1).val
      ∧ (i 1).val < win1_7.index ⟨(i 0).val / 5000, hq⟩ (1 : Fin 2) * 128 + 128
    rw [e1]
    omega

/-- The region's result array after all ten points is the whole-array function. -/
theorem node_array_fun (c : Dev nD) : (dat1 (F := Ideal) V c).arrAt 7 cfg1.N = nodeArr V c :=
  (dat1 (F := Ideal) V c).arrAt_eq_of_cover 7 (nodeArr V c) (fun t _ => flushed_eq V c t) cover

/-- The node region's result array (window 7, after all 10 grid points) at node n, feature j, from the arrays the region
    finds: window 0 = main_arg0 [50000,128], 1 = main_v58 [50000,128], 2 = main_v60 [128,128], 3 = main_v62 [128,128],
    4 = main_v63 [1,128], 5 = main_v64 [128,128], 6 = main_v65 [1,128]. -/
theorem node_array (c : Dev nD) (n : Fin 50000) (j : Fin 128) :
    (dat1 (F := Ideal) V c).arrAt 7 cfg1.N (ix2 n j)
      = nodeOut (fun k => V c main_arg0 (ix2 n k)) (fun k => V c main_v58 (ix2 n k)) (fun l k => V c main_v60 (ix2 l k))
          (fun l k => V c main_v62 (ix2 l k)) (fun k => V c main_v63 (ix2 (0 : Fin 1) k)) (fun k j => V c main_v64 (ix2 k j))
          (fun j => V c main_v65 (ix2 (0 : Fin 1) j)) j := by
  rw [node_array_fun]
  rfl

end Cert.KernelIdeal.NodeRegion

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.EdgePayload.lean ====
/-
  The edge network's arithmetic on one block of 6400 edges, read at an entry.
  Every operation of the body is either pointwise, or a matrix product into a zero accumulator (entry (r, j) is the
  sum over k of the left operand's (r, k) times the right operand's (k, j)), or the sum of a row's three squares, or
  a change of layout (a vector viewed as a column, a column or a one-row matrix repeated to a full block). Reading
  each at an entry turns the body's three stored values into the row functions of the specification applied to
  row r of the edge operands: the first layer before the activation, the message, the clipped coordinate weight.
  Rounding steps between formats are the identity on the extended reals.
-/
import proofs.«171544_j47828755808708_2_alg».proof.Proof.Gen.KernelIdeal.Skeleton
import proofs.«171544_j47828755808708_2_alg».proof.Proof.NetSpec
import proofs.«171544_j47828755808708_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeBody

open Cert.KernelIdeal Cert.KernelIdeal.Gen Idealize.ShloMosaic Idealize.ShloMosaic.ValueIdx Cert.NetSpec

/-! ## Pointwise operations at an entry -/

theorem sqrt_apply {s : Shape} {φ : FTy} (a : FVec Ideal s φ) (i : s.Idx) : sqrt a i = Ideal.sqrt (a i) := rfl
theorem logistic_apply {s : Shape} {φ : FTy} (a : FVec Ideal s φ) (i : s.Idx) : logistic a i = Ideal.logistic (a i) := rfl
theorem scalar_ofBits (φ : FTy) (b : BitVec φ.bits) : Scalar.ofBits (F := Ideal) φ b = Ideal.ofBits φ b := rfl

/-! ## The matrix products at an entry -/

theorem lhs0_128 (i : S6400x128.Idx) (q : dot_S6400x128_S128x128_S6400x128_1_0_0_1_n_n.contr.Idx) : (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl
theorem rhs1_128 (i : S6400x128.Idx) (q : dot_S6400x128_S128x128_S6400x128_1_0_0_1_n_n.contr.Idx) : (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

/-- A [6400,128] block times a [128,128] matrix, into zero: entry (r, j) is ∑ₖ lhs(r, k) · rhs(k, j). -/
theorem matmul_128_apply (lhs : FVec Ideal S6400x128 .bf16) (rhs : FVec Ideal S128x128 .bf16) (r : Fin 6400) (j : Fin 128) :
    matmul dot_S6400x128_S128x128_S6400x128_1_0_0_1_n_n none lhs rhs (constant (F := Ideal) S6400x128 .f32 0x00000000#32) (ix2 r j)
      = ∑ k : Fin 128, lhs (ix2 r k) * rhs (ix2 k j) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 r j) ((ValueIdx.contrEquiv1 dot_S6400x128_S128x128_S6400x128_1_0_0_1_n_n 128 rfl rfl).symm k) = ix2 r k := funext fun a => Fin.ext (by
    match a with
    | ⟨0, _⟩ => exact lhs0_128 _ _
    | ⟨1, _⟩ => exact (dot_S6400x128_S128x128_S6400x128_1_0_0_1_n_n.lhsIdx_val_of_single rfl _ _).trans hk)
  have er : dot_S6400x128_S128x128_S6400x128_1_0_0_1_n_n.rhsIdx (ix2 r j) ((ValueIdx.contrEquiv1 dot_S6400x128_S128x128_S6400x128_1_0_0_1_n_n 128 rfl rfl).symm k) = ix2 k j := funext fun a => Fin.ext (by
    match a with
    | ⟨0, _⟩ => exact (dot_S6400x128_S128x128_S6400x128_1_0_0_1_n_n.rhsIdx_val_of_single rfl _ _).trans hk
    | ⟨1, _⟩ => exact rhs1_128 _ _)
  rw [el, er]

theorem lhs0_51 (i : S6400x128.Idx) (q : dot_S6400x51_S51x128_S6400x128_1_0_0_1_n_n.contr.Idx) : (dot_S6400x51_S51x128_S6400x128_1_0_0_1_n_n.lhsIdx i q 0).val = (i 0).val := by
  unfold DotDims.lhsIdx
  rw [dif_neg (show ¬(0 : Fin S6400x51.rank) ∈ dot_S6400x51_S51x128_S6400x128_1_0_0_1_n_n.lhsBatch by decide),
    dif_pos (show (0 : Fin S6400x51.rank) ∈ dot_S6400x51_S51x128_S6400x128_1_0_0_1_n_n.lhsNonContracting by decide)]
  rfl
theorem rhs1_51 (i : S6400x128.Idx) (q : dot_S6400x51_S51x128_S6400x128_1_0_0_1_n_n.contr.Idx) : (dot_S6400x51_S51x128_S6400x128_1_0_0_1_n_n.rhsIdx i q 1).val = (i 1).val := by
  unfold DotDims.rhsIdx
  rw [dif_neg (show ¬(1 : Fin S51x128.rank) ∈ dot_S6400x51_S51x128_S6400x128_1_0_0_1_n_n.rhsBatch by decide),
    dif_pos (show (1 : Fin S51x128.rank) ∈ dot_S6400x51_S51x128_S6400x128_1_0_0_1_n_n.rhsNonContracting by decide)]
  rfl

/-- A [6400,51] block times a [51,128] matrix, into zero: entry (r, j) is ∑ₖ lhs(r, k) · rhs(k, j), k below 51. -/
theorem matmul_51_apply (lhs : FVec Ideal S6400x51 .bf16) (rhs : FVec Ideal S51x128 .bf16) (r : Fin 6400) (j : Fin 128) :
    matmul dot_S6400x51_S51x128_S6400x128_1_0_0_1_n_n none lhs rhs (constant (F := Ideal) S6400x128 .f32 0x00000000#32) (ix2 r j)
      = ∑ k : Fin 51, lhs (ix2 r k) * rhs (ix2 k j) := by
  simp only [matmul]
  rw [Ideal.matmul_constant_zero_apply, ← Equiv.sum_comp (ValueIdx.contrEquiv1 dot_S6400x51_S51x128_S6400x128_1_0_0_1_n_n 51 rfl rfl).symm]
  refine Finset.sum_congr rfl fun k _ => ?_
  have hk := ValueIdx.contrEquiv1_symm_val dot_S6400x51_S51x128_S6400x128_1_0_0_1_n_n 51 rfl rfl k
  have el : dot_S6400x51_S51x128_S6400x128_1_0_0_1_n_n.lhsIdx (ix2 r j) ((ValueIdx.contrEquiv1 dot_S6400x51_S51x128_S6400x128_1_0_0_1_n_n 51 rfl rfl).symm k) = ix2 r k := funext fun a => Fin.ext (by
    match a with
    | ⟨0, _⟩ => exact lhs0_51 _ _
    | ⟨1, _⟩ => exact (dot_S6400x51_S51x128_S6400x128_1_0_0_1_n_n.lhsIdx_val_of_single rfl _ _).trans hk)
  have er : dot_S6400x51_S51x128_S6400x128_1_0_0_1_n_n.rhsIdx (ix2 r j) ((ValueIdx.contrEquiv1 dot_S6400x51_S51x128_S6400x128_1_0_0_1_n_n 51 rfl rfl).symm k) = ix2 k j := funext fun a => Fin.ext (by
    match a with
    | ⟨0, _⟩ => exact (dot_S6400x51_S51x128_S6400x128_1_0_0_1_n_n.rhsIdx_val_of_single rfl _ _).trans hk
    | ⟨1, _⟩ => exact rhs1_51 _ _)
  rw [el, er]

theorem lhs0_col (i : S6400x1.Idx) (q : dot_S6400x128_S128x1_S6400x1_1_0_0_1_n_n.contr.Idx) : (dot_S6400x128_S128x1_S6400x1_1_0_0_1_n_n.lhsIdx i q 0).val = (i 0).val := by
  unfold DotDims.lhsIdx
  rw [dif_neg (show ¬(0 : Fin S6400x128.rank) ∈ dot_S6400x128_S128x1_S6400x1_1_0_0_1_n_n.lhsBatch by decide),
    dif_pos (show (0 : Fin S6400x128.rank) ∈ dot_S6400x128_S128x1_S6400x1_1_0_0_1_n_n.lhsNonContracting by decide)]
  rfl
theorem rhs1_col (i : S6400x1.Idx) (q : dot_S6400x128_S128x1_S6400x1_1_0_0_1_n_n.contr.Idx) : (dot_S6400x128_S128x1_S6400x1_1_0_0_1_n_n.rhsIdx i q 1).val = (i 1).val := by
  unfold DotDims.rhsIdx
  rw [dif_neg (show ¬(1 : Fin S128x1.rank) ∈ dot_S6400x128_S128x1_S6400x1_1_0_0_1_n_n.rhsBatch by decide),
    dif_pos (show (1 : Fin S128x1.rank) ∈ dot_S6400x128_S128x1_S6400x1_1_0_0_1_n_n.rhsNonContracting by decide)]
  rfl

/-- A [6400,128] block times a single column [128,1], into zero: entry (r, 0) is ∑ₖ lhs(r, k) · rhs(k, 0). -/
theorem matmul_col_apply (lhs : FVec Ideal S6400x128 .bf16) (rhs : FVec Ideal S128x1 .bf16) (r : Fin 6400) (u : Fin 1) :
    matmul dot_S6400x128_S128x1_S6400x1_1_0_0_1_n_n none lhs rhs (constant (F := Ideal) S6400x1 .f32 0x00000000#32) (ix2 r u)
      = ∑ k : Fin 128, lhs (ix2 r k) * rhs (ix2 k u) := by
  simp only [matmul]
  rw [Ideal.matmul_constant_zero_apply, ← Equiv.sum_comp (ValueIdx.contrEquiv1 dot_S6400x128_S128x1_S6400x1_1_0_0_1_n_n 128 rfl rfl).symm]
  refine Finset.sum_congr rfl fun k _ => ?_
  have hk := ValueIdx.contrEquiv1_symm_val dot_S6400x128_S128x1_S6400x1_1_0_0_1_n_n 128 rfl rfl k
  have el : dot_S6400x128_S128x1_S6400x1_1_0_0_1_n_n.lhsIdx (ix2 r u) ((ValueIdx.contrEquiv1 dot_S6400x128_S128x1_S6400x1_1_0_0_1_n_n 128 rfl rfl).symm k) = ix2 r k := funext fun a => Fin.ext (by
    match a with
    | ⟨0, _⟩ => exact lhs0_col _ _
    | ⟨1, _⟩ => exact (dot_S6400x128_S128x1_S6400x1_1_0_0_1_n_n.lhsIdx_val_of_single rfl _ _).trans hk)
  have er : dot_S6400x128_S128x1_S6400x1_1_0_0_1_n_n.rhsIdx (ix2 r u) ((ValueIdx.contrEquiv1 dot_S6400x128_S128x1_S6400x1_1_0_0_1_n_n 128 rfl rfl).symm k) = ix2 k u := funext fun a => Fin.ext (by
    match a with
    | ⟨0, _⟩ => exact (dot_S6400x128_S128x1_S6400x1_1_0_0_1_n_n.rhsIdx_val_of_single rfl _ _).trans hk
    | ⟨1, _⟩ => exact rhs1_col _ _)
  rw [el, er]

/-! ## The sum along a row of three -/

/-- The lane sum of a [6400,3] block from the zero accumulator, at row r: the sum of the row's three entries. -/
theorem rowsum3_apply (src : FVec Ideal S6400x3 .f32) (hφ : FKind.Formats .f32)
    (hacc : (0x00000000#32 : BitVec 32) = 0x00000000#32) (r : Fin 6400) :
    multiReduction .add [1] S6400 src 0x00000000#32 reduces_S6400x3_S6400 hφ hacc (ix1 r) = ∑ k : Fin 3, src (ix2 r k) := by
  refine (Ideal.multiReduction_add_single src 0x00000000#32 reduces_S6400x3_S6400 hφ hacc (ix1 r)).trans ?_
  refine Finset.sum_congr rfl fun k _ => congrArg src (funext fun a => Fin.ext ?_)
  match a with
  | ⟨0, _⟩ => rfl
  | ⟨1, _⟩ => rfl

/-! ## The stored values at an entry -/

/-- The first layer before the activation, at row r, lane j of the block: the four partial products and the bias, of
    row r of the four edge operands. -/
theorem pre_apply (v0 v2 : Vec Ideal S6400x128 .bf16) (v4 : Vec Ideal S6400x51 .f32) (v6 : Vec Ideal S6400x3 .f32)
    (v15 : Vec Ideal S1x128 .bf16) (v21 v24 : Vec Ideal S128x128 .bf16) (v28 : Vec Ideal S51x128 .bf16)
    (v33 : Vec Ideal S1x128 .f32) (r : Fin 6400) (j : Fin 128) :
    addf (k0_pay3 (F := Ideal) v0 v2 v4 v6 v15 v21 v24 v28) (k0_pay4 (F := Ideal) v33) (ix2 r j)
      = edgePre (fun k => v0 (ix2 r k)) (fun k => v2 (ix2 r k)) (fun k => v4 (ix2 r k)) (fun k => v6 (ix2 r k))
          (Ideal.ofBits .f32 0x322BCC77#32) (fun k j => v21 (ix2 k j)) (fun k j => v24 (ix2 k j)) (fun k j => v28 (ix2 k j))
          (fun j => v15 (ix2 (0 : Fin 1) j)) (fun j => v33 (ix2 (0 : Fin 1) j)) j := by
  unfold k0_pay3 k0_pay4 edgePre radial
  simp only [addf_apply, mulf_apply, extf_apply, truncf_apply, sqrt_apply, broadcast_apply, scalar_ofBits,
    matmul_128_apply, matmul_51_apply, shapeCast_self,
    Cert.LibLayout.broadcastTo_a1_ab_apply, Cert.LibLayout.shapeCast_a_a1_apply, broadcastTo_1b_ab_apply]
  rw [rowsum3_apply (mulf v6 v6) k0_pay3._proof_2 k0_pay3._proof_3 r]
  simp only [mulf_apply]

/-- The message at row r, lane j, from the first layer's output block: activation, dense layer, activation. -/
theorem msg_apply (v32 v35 : FVec Ideal S6400x128 .f32) (v40 : Vec Ideal S128x128 .bf16) (v43 : Vec Ideal S1x128 .f32)
    (r : Fin 6400) (j : Fin 128) :
    k0_pay1 (F := Ideal) v32 v35 v40 v43 (ix2 r j)
      = edgeMsg (fun k => addf v32 v35 (ix2 r k)) (fun k j => v40 (ix2 k j)) (fun j => v43 (ix2 (0 : Fin 1) j)) j := by
  unfold k0_pay1 edgeMsg dense silu
  simp only [addf_apply, mulf_apply, truncf_apply, logistic_apply, matmul_128_apply, shapeCast_self,
    broadcastTo_1b_ab_apply]

/-- The clipped coordinate weight at row r, from the message block: dense layer, activation, one column, clip. -/
theorem coord_apply (v32 v35 : FVec Ideal S6400x128 .f32) (v40 : Vec Ideal S128x128 .bf16) (v43 : Vec Ideal S1x128 .f32)
    (v50 : Vec Ideal S128x128 .bf16) (v53 : Vec Ideal S1x128 .f32) (v60 : Vec Ideal S128x1 .bf16) (r : Fin 6400) (u : Fin 1) :
    k0_pay2 (F := Ideal) v32 v35 v40 v43 v50 v53 v60 (ix2 r u)
      = edgeCoord (fun k => k0_pay1 (F := Ideal) v32 v35 v40 v43 (ix2 r k)) (fun k j => v50 (ix2 k j))
          (fun j => v53 (ix2 (0 : Fin 1) j)) (fun k => v60 (ix2 k u))
          (Ideal.ofBits .f32 0xBF800000#32) (Ideal.ofBits .f32 0x3F800000#32) := by
  unfold k0_pay2 edgeCoord dense silu
  simp only [addf_apply, mulf_apply, truncf_apply, logistic_apply, minimumf_apply, maximumf_apply, broadcast_apply,
    scalar_ofBits, matmul_128_apply, matmul_col_apply, shapeCast_self, broadcastTo_1b_ab_apply]

end Cert.KernelIdeal.EdgeBody

end
-- ==== Proof.EdgeRegion.lean ====
/-
  The edge network's two result arrays after its grid of 125 points.
  Point t of the grid works on edges 6400·t … 6400·t + 6399: the four edge operands and both results are cut into
  blocks of 6400 rows and point t takes block t of each, while the ten weight and bias operands are taken whole at
  every point. So what point t writes back is block t of one function of the arrays as the grid finds them — the
  message of each edge from that edge's rows, and the clipped coordinate weight from its message — and, as every
  row lies in exactly the block numbered by its quotient by 6400, the result arrays end holding that function.
-/
import proofs.«171544_j47828755808708_2_alg».proof.Proof.Gen.KernelIdeal.Frame
import proofs.«171544_j47828755808708_2_alg».proof.Proof.EdgePayload
import proofs.«171544_j47828755808708_2_alg».proof.Proof.NetSpec
import Idealize.ShloMosaic.Lib.Pipeline.Value
import Idealize.ShloMosaic.Lib.ValueIdx

set_option maxRecDepth 16384

noncomputable section

namespace Cert.KernelIdeal.EdgeRegion

open Cert.KernelIdeal Cert.KernelIdeal.Gen Idealize.ShloMosaic Idealize.ShloMosaic.TcCoe Idealize.ShloMosaic.ValueIdx
open Idealize.SL.Sem Cert.NetSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem hN : cfg0.N = 125 := N_0

/-! ## The index maps over the grid: block t of the edge operands and results, block 0 of the rest -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)

/-! ## Each window's block at point t, read in the array: row p of block t is row 6400·t + p -/

theorem read0 (c : Dev nD) (t : Fin cfg0.N) (p : Fin 6400) (R : Fin 800000) (hR : R.val = t.val * 6400 + p.val) (k : Fin 128) :
    iblk0 V c 0 t (ix2 p k) = V c main_v11 (ix2 R k) := by
  show V c main_v11 (((cfg0.win 0).blk t).view.emb (ix2 p k)) = V c main_v11 (ix2 R k)
  refine congrArg (V c main_v11) (funext fun a => Fin.ext ?_)
  have e0 : win0_0.index t (0 : Fin 2) = t.val := congrFun (idx0 t) 0
  have e1 : win0_0.index t (1 : Fin 2) = 0 := congrFun (idx0 t) 1
  match a with
  | ⟨0, _⟩ => show win0_0.index t (0 : Fin 2) * 6400 + 1 * p.val = R.val; rw [e0, hR]; omega
  | ⟨1, _⟩ => show win0_0.index t (1 : Fin 2) * 128 + 1 * k.val = k.val; rw [e1]; omega

theorem read1 (c : Dev nD) (t : Fin cfg0.N) (p : Fin 6400) (R : Fin 800000) (hR : R.val = t.val * 6400 + p.val) (k : Fin 128) :
    iblk0 V c 1 t (ix2 p k) = V c main_v18 (ix2 R k) := by
  show V c main_v18 (((cfg0.win 1).blk t).view.emb (ix2 p k)) = V c main_v18 (ix2 R k)
  refine congrArg (V c main_v18) (funext fun a => Fin.ext ?_)
  have e0 : win0_1.index t (0 : Fin 2) = t.val := congrFun (idx1 t) 0
  have e1 : win0_1.index t (1 : Fin 2) = 0 := congrFun (idx1 t) 1
  match a with
  | ⟨0, _⟩ => show win0_1.index t (0 : Fin 2) * 6400 + 1 * p.val = R.val; rw [e0, hR]; omega
  | ⟨1, _⟩ => show win0_1.index t (1 : Fin 2) * 128 + 1 * k.val = k.val; rw [e1]; omega

theorem read2 (c : Dev nD) (t : Fin cfg0.N) (p : Fin 6400) (R : Fin 800000) (hR : R.val = t.val * 6400 + p.val) (k : Fin 51) :
    iblk0 V c 2 t (ix2 p k) = V c main_arg2 (ix2 R k) := by
  show V c main_arg2 (((cfg0.win 2).blk t).view.emb (ix2 p k)) = V c main_arg2 (ix2 R k)
  refine congrArg (V c main_arg2) (funext fun a => Fin.ext ?_)
  have e0 : win0_2.index t (0 : Fin 2) = t.val := congrFun (idx2 t) 0
  have e1 : win0_2.index t (1 : Fin 2) = 0 := congrFun (idx2 t) 1
  match a with
  | ⟨0, _⟩ => show win0_2.index t (0 : Fin 2) * 6400 + 1 * p.val = R.val; rw [e0, hR]; omega
  | ⟨1, _⟩ => show win0_2.index t (1 : Fin 2) * 51 + 1 * k.val = k.val; rw [e1]; omega

theorem read3 (c : Dev nD) (t : Fin cfg0.N) (p : Fin 6400) (R : Fin 800000) (hR : R.val = t.val * 6400 + p.val) (k : Fin 3) :
    iblk0 V c 3 t (ix2 p k) = V c main_v33 (ix2 R k) := by
  show V c main_v33 (((cfg0.win 3).blk t).view.emb (ix2 p k)) = V c main_v33 (ix2 R k)
  refine congrArg (V c main_v33) (funext fun a => Fin.ext ?_)
  have e0 : win0_3.index t (0 : Fin 2) = t.val := congrFun (idx3 t) 0
  have e1 : win0_3.index t (1 : Fin 2) = 0 := congrFun (idx3 t) 1
  match a with
  | ⟨0, _⟩ => show win0_3.index t (0 : Fin 2) * 6400 + 1 * p.val = R.val; rw [e0, hR]; omega
  | ⟨1, _⟩ => show win0_3.index t (1 : Fin 2) * 3 + 1 * k.val = k.val; rw [e1]; omega

/-! The operands taken whole: every entry of the block is the same entry of the array. -/

theorem read4 (c : Dev nD) (t : Fin cfg0.N) (k : Fin 128) (j : Fin 128) : iblk0 V c 4 t (ix2 k j) = V c main_v35 (ix2 k j) := by
  show V c main_v35 (((cfg0.win 4).blk t).view.emb (ix2 k j)) = V c main_v35 (ix2 k j)
  refine congrArg (V c main_v35) (funext fun a => Fin.ext ?_)
  have e0 : win0_4.index t (0 : Fin 2) = 0 := congrFun (idx4 t) 0
  have e1 : win0_4.index t (1 : Fin 2) = 0 := congrFun (idx4 t) 1
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem read5 (c : Dev nD) (t : Fin cfg0.N) (k : Fin 128) (j : Fin 128) : iblk0 V c 5 t (ix2 k j) = V c main_v37 (ix2 k j) := by
  show V c main_v37 (((cfg0.win 5).blk t).view.emb (ix2 k j)) = V c main_v37 (ix2 k j)
  refine congrArg (V c main_v37) (funext fun a => Fin.ext ?_)
  have e0 : win0_5.index t (0 : Fin 2) = 0 := congrFun (idx5 t) 0
  have e1 : win0_5.index t (1 : Fin 2) = 0 := congrFun (idx5 t) 1
  match a with
  | ⟨0, _⟩ => show win0_5.index t (0 : Fin 2) * 128 + 1 * k.val = k.val; rw [e0]; omega
  | ⟨1, _⟩ => show win0_5.index t (1 : Fin 2) * 128 + 1 * j.val = j.val; rw [e1]; omega

theorem read6 (c : Dev nD) (t : Fin cfg0.N) (k : Fin 51) (j : Fin 128) : iblk0 V c 6 t (ix2 k j) = V c main_v39 (ix2 k j) := by
  show V c main_v39 (((cfg0.win 6).blk t).view.emb (ix2 k j)) = V c main_v39 (ix2 k j)
  refine congrArg (V c main_v39) (funext fun a => Fin.ext ?_)
  have e0 : win0_6.index t (0 : Fin 2) = 0 := congrFun (idx6 t) 0
  have e1 : win0_6.index t (1 : Fin 2) = 0 := congrFun (idx6 t) 1
  match a with
  | ⟨0, _⟩ => show win0_6.index t (0 : Fin 2) * 51 + 1 * k.val = k.val; rw [e0]; omega
  | ⟨1, _⟩ => show win0_6.index t (1 : Fin 2) * 128 + 1 * j.val = j.val; rw [e1]; omega

theorem read7 (c : Dev nD) (t : Fin cfg0.N) (u : Fin 1) (j : Fin 128) : iblk0 V c 7 t (ix2 u j) = V c main_v41 (ix2 u j) := by
  show V c main_v41 (((cfg0.win 7).blk t).view.emb (ix2 u j)) = V c main_v41 (ix2 u j)
  refine congrArg (V c main_v41) (funext fun a => Fin.ext ?_)
  have e0 : win0_7.index t (0 : Fin 2) = 0 := congrFun (idx7 t) 0
  have e1 : win0_7.index t (1 : Fin 2) = 0 := congrFun (idx7 t) 1
  match a with
  | ⟨0, _⟩ => show win0_7.index t (0 : Fin 2) * 1 + 1 * u.val = u.val; rw [e0]; omega
  | ⟨1, _⟩ => show win0_7.index t (1 : Fin 2) * 128 + 1 * j.val = j.val; rw [e1]; omega

theorem read8 (c : Dev nD) (t : Fin cfg0.N) (u : Fin 1) (j : Fin 128) : iblk0 V c 8 t (ix2 u j) = V c main_v42 (ix2 u j) := by
  show V c main_v42 (((cfg0.win 8).blk t).view.emb (ix2 u j)) = V c main_v42 (ix2 u j)
  refine congrArg (V c main_v42) (funext fun a => Fin.ext ?_)
  have e0 : win0_8.index t (0 : Fin 2) = 0 := congrFun (idx8 t) 0
  have e1 : win0_8.index t (1 : Fin 2) = 0 := congrFun (idx8 t) 1
  match a with
  | ⟨0, _⟩ => show win0_8.index t (0 : Fin 2) * 1 + 1 * u.val = u.val; rw [e0]; omega
  | ⟨1, _⟩ => show win0_8.index t (1 : Fin 2) * 128 + 1 * j.val = j.val; rw [e1]; omega

theorem read9 (c : Dev nD) (t : Fin cfg0.N) (k : Fin 128) (j : Fin 128) : iblk0 V c 9 t (ix2 k j) = V c main_v43 (ix2 k j) := by
  show V c main_v43 (((cfg0.win 9).blk t).view.emb (ix2 k j)) = V c main_v43 (ix2 k j)
  refine congrArg (V c main_v43) (funext fun a => Fin.ext ?_)
  have e0 : win0_9.index t (0 : Fin 2) = 0 := congrFun (idx9 t) 0
  have e1 : win0_9.index t (1 : Fin 2) = 0 := congrFun (idx9 t) 1
  match a with
  | ⟨0, _⟩ => show win0_9.index t (0 : Fin 2) * 128 + 1 * k.val = k.val; rw [e0]; omega
  | ⟨1, _⟩ => show win0_9.index t (1 : Fin 2) * 128 + 1 * j.val = j.val; rw [e1]; omega

theorem read10 (c : Dev nD) (t : Fin cfg0.N) (u : Fin 1) (j : Fin 128) : iblk0 V c 10 t (ix2 u j) = V c main_v44 (ix2 u j) := by
  show V c main_v44 (((cfg0.win 10).blk t).view.emb (ix2 u j)) = V c main_v44 (ix2 u j)
  refine congrArg (V c main_v44) (funext fun a => Fin.ext ?_)
  have e0 : win0_10.index t (0 : Fin 2) = 0 := congrFun (idx10 t) 0
  have e1 : win0_10.index t (1 : Fin 2) = 0 := congrFun (idx10 t) 1
  match a with
  | ⟨0, _⟩ => show win0_10.index t (0 : Fin 2) * 1 + 1 * u.val = u.val; rw [e0]; omega
  | ⟨1, _⟩ => show win0_10.index t (1 : Fin 2) * 128 + 1 * j.val = j.val; rw [e1]; omega

theorem read11 (c : Dev nD) (t : Fin cfg0.N) (k : Fin 128) (j : Fin 128) : iblk0 V c 11 t (ix2 k j) = V c main_v45 (ix2 k j) := by
  show V c main_v45 (((cfg0.win 11).blk t).view.emb (ix2 k j)) = V c main_v45 (ix2 k j)
  refine congrArg (V c main_v45) (funext fun a => Fin.ext ?_)
  have e0 : win0_11.index t (0 : Fin 2) = 0 := congrFun (idx11 t) 0
  have e1 : win0_11.index t (1 : Fin 2) = 0 := congrFun (idx11 t) 1
  match a with
  | ⟨0, _⟩ => show win0_11.index t (0 : Fin 2) * 128 + 1 * k.val = k.val; rw [e0]; omega
  | ⟨1, _⟩ => show win0_11.index t (1 : Fin 2) * 128 + 1 * j.val = j.val; rw [e1]; omega

theorem read12 (c : Dev nD) (t : Fin cfg0.N) (u : Fin 1) (j : Fin 128) : iblk0 V c 12 t (ix2 u j) = V c main_v46 (ix2 u j) := by
  show V c main_v46 (((cfg0.win 12).blk t).view.emb (ix2 u j)) = V c main_v46 (ix2 u j)
  refine congrArg (V c main_v46) (funext fun a => Fin.ext ?_)
  have e0 : win0_12.index t (0 : Fin 2) = 0 := congrFun (idx12 t) 0
  have e1 : win0_12.index t (1 : Fin 2) = 0 := congrFun (idx12 t) 1
  match a with
  | ⟨0, _⟩ => show win0_12.index t (0 : Fin 2) * 1 + 1 * u.val = u.val; rw [e0]; omega
  | ⟨1, _⟩ => show win0_12.index t (1 : Fin 2) * 128 + 1 * j.val = j.val; rw [e1]; omega

theorem read13 (c : Dev nD) (t : Fin cfg0.N) (k : Fin 128) (u : Fin 1) : iblk0 V c 13 t (ix2 k u) = V c main_v47 (ix2 k u) := by
  show V c main_v47 (((cfg0.win 13).blk t).view.emb (ix2 k u)) = V c main_v47 (ix2 k u)
  refine congrArg (V c main_v47) (funext fun a => Fin.ext ?_)
  have e0 : win0_13.index t (0 : Fin 2) = 0 := congrFun (idx13 t) 0
  have e1 : win0_13.index t (1 : Fin 2) = 0 := congrFun (idx13 t) 1
  match a with
  | ⟨0, _⟩ => show win0_13.index t (0 : Fin 2) * 128 + 1 * k.val = k.val; rw [e0]; omega
  | ⟨1, _⟩ => show win0_13.index t (1 : Fin 2) * 1 + 1 * u.val = u.val; rw [e1]; omega

/-! ## The two result arrays as functions of the arrays the grid finds -/

/-- The message of edge R, from row R of the gathered source and target features, the attributes and the
    coordinate differences, and the first two layers' weights. -/
def msgRow (c : Dev nD) (R : Fin 800000) (j : Fin 128) : EReal :=
  edgeMsg (edgePre (fun k => V c main_v11 (ix2 R k)) (fun k => V c main_v18 (ix2 R k)) (fun k => V c main_arg2 (ix2 R k))
      (fun k => V c main_v33 (ix2 R k)) (Ideal.ofBits .f32 0x322BCC77#32) (fun k j => V c main_v35 (ix2 k j))
      (fun k j => V c main_v37 (ix2 k j)) (fun k j => V c main_v39 (ix2 k j)) (fun j => V c main_v41 (ix2 (0 : Fin 1) j))
      (fun j => V c main_v42 (ix2 (0 : Fin 1) j)))
    (fun k j => V c main_v43 (ix2 k j)) (fun j => V c main_v44 (ix2 (0 : Fin 1) j)) j

/-- The clipped coordinate weight of edge R, from its message and the coordinate layers' weights. -/
def coordRow (c : Dev nD) (R : Fin 800000) (u : Fin 1) : EReal :=
  edgeCoord (msgRow V c R) (fun k j => V c main_v45 (ix2 k j)) (fun j => V c main_v46 (ix2 (0 : Fin 1) j))
    (fun k => V c main_v47 (ix2 k u)) (Ideal.ofBits .f32 0xBF800000#32) (Ideal.ofBits .f32 0x3F800000#32)

/-- The message array: entry (R, j) is lane j of edge R's message. -/
def msgArr (c : Dev nD) : S800000x128.Idx → Elt Ideal .bf16 :=
  fun i => msgRow V c ⟨(i 0).val, (i 0).isLt⟩ ⟨(i 1).val, (i 1).isLt⟩

/-- The coordinate-weight column: entry (R, 0) is edge R's clipped weight. -/
def coordArr (c : Dev nD) : S800000x1.Idx → Elt Ideal .f32 :=
  fun i => coordRow V c ⟨(i 0).val, (i 0).isLt⟩ ⟨(i 1).val, (i 1).isLt⟩

/-! ## What a point computes, in terms of the arrays -/

/-- Row p of the message block point t stores is the message of edge 6400·t + p. -/
theorem msg_blk (c : Dev nD) (t : Fin cfg0.N) (p : Fin 6400) (R : Fin 800000) (hR : R.val = t.val * 6400 + p.val) (q : Fin 128) :
    k0_pay1 (F := Ideal) (k0_pay3 (F := Ideal) (iblk0 V c 0 t) (iblk0 V c 1 t) (iblk0 V c 2 t) (iblk0 V c 3 t) (iblk0 V c 7 t)
        (iblk0 V c 4 t) (iblk0 V c 5 t) (iblk0 V c 6 t)) (k0_pay4 (F := Ideal) (iblk0 V c 8 t)) (iblk0 V c 9 t) (iblk0 V c 10 t) (ix2 p q)
      = msgRow V c R q := by
  refine (EdgeBody.msg_apply _ _ _ _ p q).trans ?_
  unfold msgRow
  have hpre : (fun k => addf (k0_pay3 (F := Ideal) (iblk0 V c 0 t) (iblk0 V c 1 t) (iblk0 V c 2 t) (iblk0 V c 3 t) (iblk0 V c 7 t)
        (iblk0 V c 4 t) (iblk0 V c 5 t) (iblk0 V c 6 t)) (k0_pay4 (F := Ideal) (iblk0 V c 8 t)) (ix2 p k))
      = edgePre (fun k => V c main_v11 (ix2 R k)) (fun k => V c main_v18 (ix2 R k)) (fun k => V c main_arg2 (ix2 R k))
          (fun k => V c main_v33 (ix2 R k)) (Ideal.ofBits .f32 0x322BCC77#32) (fun k j => V c main_v35 (ix2 k j))
          (fun k j => V c main_v37 (ix2 k j)) (fun k j => V c main_v39 (ix2 k j)) (fun j => V c main_v41 (ix2 (0 : Fin 1) j))
          (fun j => V c main_v42 (ix2 (0 : Fin 1) j)) := funext fun k => by
    refine (EdgeBody.pre_apply _ _ _ _ _ _ _ _ _ p k).trans ?_
    simp only [read0 V c t p R hR, read1 V c t p R hR, read2 V c t p R hR, read3 V c t p R hR, read4 V c t, read5 V c t,
      read6 V c t, read7 V c t, read8 V c t]
  rw [hpre]
  simp only [read9 V c t, read10 V c t]

/-! ## What a point writes back -/

theorem flushed14 (c : Dev nD) (t : Fin cfg0.N) :
    (dat0 (F := Ideal) V c).flushed 14 t = ((cfg0.win 14).blk t).view.read (Elt Ideal) (msgArr V c) := by
  show (cfg0.win 14).cut (grid0.coords t) ((dat0 (F := Ideal) V c).after 14 t) = _
  rw [after0_14]
  unfold out0_14
  rw [View.canon_unit_zero hz]
  simp only [View.ld_unit_zero (S := S6400x128) hz, View.ld_unit_zero (S := S6400x51) hz, View.ld_unit_zero (S := S6400x3) hz,
    View.ld_unit_zero (S := S1x128) hz, View.ld_unit_zero (S := S128x128) hz, View.ld_unit_zero (S := S51x128) hz]
  funext y
  obtain ⟨p, q, rfl⟩ : ∃ (p : Fin 6400) (q : Fin 128), y = ix2 p q := ⟨y 0, y 1, eq_ix2 y⟩
  have ht : t.val < 125 := lt_of_lt_of_eq t.isLt hN
  obtain ⟨R, hR⟩ : ∃ R : Fin 800000, R.val = t.val * 6400 + p.val := ⟨⟨t.val * 6400 + p.val, by omega⟩, rfl⟩
  refine (msg_blk V c t p R hR q).trans ?_
  have e0 : win0_14.index t (0 : Fin 2) = t.val := congrFun (idx14 t) 0
  have e1 : win0_14.index t (1 : Fin 2) = 0 := congrFun (idx14 t) 1
  show msgRow V c R q = msgArr V c (((cfg0.win 14).blk t).view.emb (ix2 p q))
  unfold msgArr
  congr 1
  · refine Fin.ext ?_
    show R.val = win0_14.index t (0 : Fin 2) * 6400 + 1 * p.val
    rw [e0, hR]; omega
  · refine Fin.ext ?_
    show q.val = win0_14.index t (1 : Fin 2) * 128 + 1 * q.val
    rw [e1]; omega

theorem flushed15 (c : Dev nD) (t : Fin cfg0.N) :
    (dat0 (F := Ideal) V c).flushed 15 t = ((cfg0.win 15).blk t).view.read (Elt Ideal) (coordArr V c) := by
  show (cfg0.win 15).cut (grid0.coords t) ((dat0 (F := Ideal) V c).after 15 t) = _
  rw [after0_15]
  unfold out0_15
  rw [View.canon_unit_zero hz]
  simp only [View.ld_unit_zero (S := S6400x128) hz, View.ld_unit_zero (S := S6400x51) hz, View.ld_unit_zero (S := S6400x3) hz,
    View.ld_unit_zero (S := S1x128) hz, View.ld_unit_zero (S := S128x128) hz, View.ld_unit_zero (S := S51x128) hz,
    View.ld_unit_zero (S := S128x1) hz]
  funext y
  obtain ⟨p, u, rfl⟩ : ∃ (p : Fin 6400) (u : Fin 1), y = ix2 p u := ⟨y 0, y 1, eq_ix2 y⟩
  have ht : t.val < 125 := lt_of_lt_of_eq t.isLt hN
  obtain ⟨R, hR⟩ : ∃ R : Fin 800000, R.val = t.val * 6400 + p.val := ⟨⟨t.val * 6400 + p.val, by omega⟩, rfl⟩
  refine (EdgeBody.coord_apply _ _ _ _ _ _ _ p u).trans ?_
  have hmsg : (fun k => k0_pay1 (F := Ideal) (k0_pay3 (F := Ideal) (iblk0 V c 0 t) (iblk0 V c 1 t) (iblk0 V c 2 t) (iblk0 V c 3 t) (iblk0 V c 7 t)
        (iblk0 V c 4 t) (iblk0 V c 5 t) (iblk0 V c 6 t)) (k0_pay4 (F := Ideal) (iblk0 V c 8 t)) (iblk0 V c 9 t) (iblk0 V c 10 t) (ix2 p k))
      = msgRow V c R := funext fun k => msg_blk V c t p R hR k
  rw [hmsg]
  simp only [read11 V c t, read12 V c t, read13 V c t]
  have e0 : win0_15.index t (0 : Fin 2) = t.val := congrFun (idx15 t) 0
  have e1 : win0_15.index t (1 : Fin 2) = 0 := congrFun (idx15 t) 1
  show coordRow V c R u = coordArr V c (((cfg0.win 15).blk t).view.emb (ix2 p u))
  unfold coordArr
  congr 1
  · refine Fin.ext ?_
    show R.val = win0_15.index t (0 : Fin 2) * 6400 + 1 * p.val
    rw [e0, hR]; omega
  · refine Fin.ext ?_
    show u.val = win0_15.index t (1 : Fin 2) * 1 + 1 * u.val
    rw [e1]; omega

/-! ## Every row is in the block numbered by its quotient by 6400 -/

theorem mem_blk14 (t : Fin cfg0.N) (i : S800000x128.Idx) :
    i ∈ ((cfg0.win 14).blk t).view.set ↔ ∀ a : Fin 2, win0_14.index t a * S6400x128.size a ≤ (i a).val
      ∧ (i a).val < win0_14.index t a * S6400x128.size a + S6400x128.size a := by
  show i ∈ ((View.whole main_v48_0).slice (win0_14.rect t)).set ↔ _
  rw [View.set_slice_whole, Rect.mem_set_unit]
  exact Iff.rfl

theorem mem_blk15 (t : Fin cfg0.N) (i : S800000x1.Idx) :
    i ∈ ((cfg0.win 15).blk t).view.set ↔ ∀ a : Fin 2, win0_15.index t a * S6400x1.size a ≤ (i a).val
      ∧ (i a).val < win0_15.index t a * S6400x1.size a + S6400x1.size a := by
  show i ∈ ((View.whole main_v48_1).slice (win0_15.rect t)).set ↔ _
  rw [View.set_slice_whole, Rect.mem_set_unit]
  exact Iff.rfl

theorem cover14 (i : S800000x128.Idx) :
    ∃ t : Fin cfg0.N, (cfg0.win 14).flush t = true ∧ i ∈ ((cfg0.win 14).blk t).view.set := by
  have hi0 : (i 0).val < 800000 := (i 0).isLt
  have hi1 : (i 1).val < 128 := (i 1).isLt
  obtain ⟨t, htv⟩ : ∃ t : Fin cfg0.N, t.val = (i 0).val / 6400 := ⟨⟨(i 0).val / 6400, by rw [hN]; omega⟩, rfl⟩
  refine ⟨t, flush0_14 t, ?_⟩
  rw [mem_blk14]
  have e0 : win0_14.index t (0 : Fin 2) = t.val := congrFun (idx14 t) 0
  have e1 : win0_14.index t (1 : Fin 2) = 0 := congrFun (idx14 t) 1
  intro a
  match a with
  | ⟨0, _⟩ =>
    show win0_14.index t (0 : Fin 2) * 6400 ≤ (i 0).val ∧ (i 0).val < win0_14.index t (0 : Fin 2) * 6400 + 6400
    rw [e0, htv]; omega
  | ⟨1, _⟩ =>
    show win0_14.index t (1 : Fin 2) * 128 ≤ (i 1).val ∧ (i 1).val < win0_14.index t (1 : Fin 2) * 128 + 128
    rw [e1]; omega

theorem cover15 (i : S800000x1.Idx) :
    ∃ t : Fin cfg0.N, (cfg0.win 15).flush t = true ∧ i ∈ ((cfg0.win 15).blk t).view.set := by
  have hi0 : (i 0).val < 800000 := (i 0).isLt
  have hi1 : (i 1).val < 1 := (i 1).isLt
  obtain ⟨t, htv⟩ : ∃ t : Fin cfg0.N, t.val = (i 0).val / 6400 := ⟨⟨(i 0).val / 6400, by rw [hN]; omega⟩, rfl⟩
  refine ⟨t, flush0_15 t, ?_⟩
  rw [mem_blk15]
  have e0 : win0_15.index t (0 : Fin 2) = t.val := congrFun (idx15 t) 0
  have e1 : win0_15.index t (1 : Fin 2) = 0 := congrFun (idx15 t) 1
  intro a
  match a with
  | ⟨0, _⟩ =>
    show win0_15.index t (0 : Fin 2) * 6400 ≤ (i 0).val ∧ (i 0).val < win0_15.index t (0 : Fin 2) * 6400 + 6400
    rw [e0, htv]; omega
  | ⟨1, _⟩ =>
    show win0_15.index t (1 : Fin 2) * 1 ≤ (i 1).val ∧ (i 1).val < win0_15.index t (1 : Fin 2) * 1 + 1
    rw [e1]; omega

/-! ## The arrays after the grid -/

/-- The message array after the grid: every edge's message. -/
theorem final14 (c : Dev nD) : (dat0 (F := Ideal) V c).arrAt 14 cfg0.N = msgArr V c :=
  (dat0 (F := Ideal) V c).arrAt_eq_of_cover 14 (msgArr V c) (fun t _ => flushed14 V c t) cover14

/-- The coordinate-weight column after the grid: every edge's clipped weight. -/
theorem final15 (c : Dev nD) : (dat0 (F := Ideal) V c).arrAt 15 cfg0.N = coordArr V c :=
  (dat0 (F := Ideal) V c).arrAt_eq_of_cover 15 (coordArr V c) (fun t _ => flushed15 V c t) cover15

end Cert.KernelIdeal.EdgeRegion

end
-- ==== Proof.KernelGlue.lean ====
/-
  What the kernel program's host operations leave in the buffers the two grids and the results read.
  Before the edge grid the host cuts the edge list into its source and target columns, wraps negative node numbers
  round (n ↦ n + 50000), gathers the node features and positions of each edge's two ends, subtracts the positions,
  and cuts the first layer's weight matrix into its four row blocks; between the grids it multiplies each edge's
  coordinate weight by its coordinate difference, scatter-adds those products and the messages to the source nodes,
  and cuts the node layer's weight matrix in two. Each of these buffers is read here as a function of the argument
  arrays (and, between the grids, of the edge grid's two result arrays). Rounding to the shorter float format and back
  is the identity on the extended reals, so it leaves no trace.
-/
import proofs.«171544_j47828755808708_2_alg».proof.Proof.Gen.KernelIdeal.Frame
import proofs.«171544_j47828755808708_2_alg».proof.Proof.EdgeRegion
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.ShloMosaic.ValueIdx
open Idealize.SL.Sem Idealize.ShloMosaic.StableHlo

/-! ## The host chains as functions of the argument arrays -/

/-- The source-node column of the edge list: row 0 of the [2, 800000] index array. -/
def srcIdx (x1 : IVec S2x800000 32) : IVec S800000 32 :=
  shapeCast S800000 (extractStridedSlice S1x800000 ![0, 0] x1 slices_S2x800000_S1x800000_0_0) shapeCasts_S1x800000_S800000

/-- The target-node column: row 1. -/
def dstIdx (x1 : IVec S2x800000 32) : IVec S800000 32 :=
  shapeCast S800000 (extractStridedSlice S1x800000 ![1, 0] x1 slices_S2x800000_S1x800000_1_0) shapeCasts_S1x800000_S800000

/-- A column of node numbers with the negative ones wrapped round by adding 50000, as an [800000, 1] index array. -/
def wrapIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The node features gathered along a column of node numbers. -/
def featRows (x0 : FVec Ideal S50000x128 .f32) (ix : IVec S800000x1 32) : FVec Ideal S800000x128 .f32 :=
  Host.gather gather_S50000x128_S800000x1_S800000x128_1_0_n_n_0_1_1128 x0 ix

/-- The node positions gathered along a column of node numbers. -/
def posRows (x3 : FVec Ideal S50000x3 .f32) (ix : IVec S800000x1 32) : FVec Ideal S800000x3 .f32 :=
  Host.gather gather_S50000x3_S800000x1_S800000x3_1_0_n_n_0_1_13 x3 ix

/-- Each edge's coordinate difference: the source node's position minus the target node's. -/
def diff (x1 : IVec S2x800000 32) (x3 : FVec Ideal S50000x3 .f32) : FVec Ideal S800000x3 .f32 :=
  subf (posRows x3 (wrapIdx (srcIdx x1))) (posRows x3 (wrapIdx (dstIdx x1)))

/-- The new positions from the edges' coordinate weights: each edge's weight times its coordinate difference,
    added up at the edge's source node, on top of the old positions. -/
def newPos (x1 : IVec S2x800000 32) (x3 : FVec Ideal S50000x3 .f32) (w : FVec Ideal S800000x1 .f32) : FVec Ideal S50000x3 .f32 :=
  addf x3 (Host.scatterAdd scatter_S50000x3_S800000x1_S800000x3_1_0_0_1
    (broadcastInDim S50000x3 ![] bcast_S_S50000x3 (constant (F := Ideal) S_ .f32 0x00000000#32))
    (broadcastInDim S800000x1 ![0] bcast_S800000_S800000x1_0 (srcIdx x1))
    (mulf (broadcastInDim S800000x3 ![0, 1] bcast_S800000x1_S800000x3_0_1 w) (diff x1 x3)))

/-- The messages added up at each edge's source node. -/
def aggMsg (x1 : IVec S2x800000 32) (e : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (srcIdx x1)) e

variable (m : (ℓ : Loc nD τ sig) → Buf (Elt Ideal) ℓ) (ρ : Dev nD → PrngReg)

/-! ## Before the edge grid -/

theorem w1_v1 (c : Dev nD) : W1 m ρ c (Proc.devRef .tc main_v1) = srcIdx (m ((c : Thread nD τ).loc main_arg1)) := by
  show StableHlo.after hostOps0 (W0 m ρ c) (Proc.devRef .tc main_v1) = _
  after_results_simp <;> rfl

theorem w1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem w1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl

theorem w1_arg11 (c : Dev nD) : W1 m ρ c (Proc.devRef .tc main_arg11) = (m ((c : Thread nD τ).loc main_arg11)) := by
  show StableHlo.after hostOps0 (W0 m ρ c) (Proc.devRef .tc main_arg11) = _
  after_results_simp <;> rfl

theorem w1_arg12 (c : Dev nD) : W1 m ρ c (Proc.devRef .tc main_arg12) = (m ((c : Thread nD τ).loc main_arg12)) := by
  show StableHlo.after hostOps0 (W0 m ρ c) (Proc.devRef .tc main_arg12) = _
  after_results_simp <;> rfl

theorem w1_arg13 (c : Dev nD) : W1 m ρ c (Proc.devRef .tc main_arg13) = (m ((c : Thread nD τ).loc main_arg13)) := by
  show StableHlo.after hostOps0 (W0 m ρ c) (Proc.devRef .tc main_arg13) = _
  after_results_simp <;> rfl

theorem w1_arg14 (c : Dev nD) : W1 m ρ c (Proc.devRef .tc main_arg14) = (m ((c : Thread nD τ).loc main_arg14)) := by
  show StableHlo.after hostOps0 (W0 m ρ c) (Proc.devRef .tc main_arg14) = _
  after_results_simp <;> rfl

theorem v1_v11 (c : Dev nD) : V1 m ρ c main_v11 = featRows (m ((c : Thread nD τ).loc main_arg0)) (wrapIdx (srcIdx (m ((c : Thread nD τ).loc main_arg1)))) := by
  show StableHlo.after hostOps0 (W0 m ρ c) (Proc.devRef .tc main_v11) = _
  after_results_simp <;> rfl

theorem v1_v18 (c : Dev nD) : V1 m ρ c main_v18 = featRows (m ((c : Thread nD τ).loc main_arg0)) (wrapIdx (dstIdx (m ((c : Thread nD τ).loc main_arg1)))) := by
  show StableHlo.after hostOps0 (W0 m ρ c) (Proc.devRef .tc main_v18) = _
  after_results_simp <;> rfl

theorem v1_arg2 (c : Dev nD) : V1 m ρ c main_arg2 = (m ((c : Thread nD τ).loc main_arg2)) := by
  show StableHlo.after hostOps0 (W0 m ρ c) (Proc.devRef .tc main_arg2) = _
  after_results_simp <;> rfl

theorem v1_v33 (c : Dev nD) : V1 m ρ c main_v33 = diff (m ((c : Thread nD τ).loc main_arg1)) (m ((c : Thread nD τ).loc main_arg3)) := by
  show StableHlo.after hostOps0 (W0 m ρ c) (Proc.devRef .tc main_v33) = _
  after_results_simp <;> rfl

/-- Rows 0–127 of the first layer's weights. -/
theorem v1_v35 (c : Dev nD) (k : Fin 128) (j : Fin 128) : V1 m ρ c main_v35 (ix2 k j) = (m ((c : Thread nD τ).loc main_arg4)) (ix2 (⟨k.val, by omega⟩ : Fin 308) j) := by
  show StableHlo.after hostOps0 _ (Proc.devRef .tc main_v35) (ix2 k j) = _
  after_results_simp
  exact slice2_axis0_apply 0 _ slices_S308x128_S128x128_0_0 k j ⟨k.val, by omega⟩ (by show k.val = 0 + k.val; omega)

/-- Rows 128–255. -/
theorem v1_v37 (c : Dev nD) (k : Fin 128) (j : Fin 128) : V1 m ρ c main_v37 (ix2 k j) = (m ((c : Thread nD τ).loc main_arg4)) (ix2 (⟨128 + k.val, by omega⟩ : Fin 308) j) := by
  show StableHlo.after hostOps0 _ (Proc.devRef .tc main_v37) (ix2 k j) = _
  after_results_simp
  exact slice2_axis0_apply 128 _ slices_S308x128_S128x128_128_0 k j ⟨128 + k.val, by omega⟩ rfl

/-- Rows 256–306. -/
theorem v1_v39 (c : Dev nD) (k : Fin 51) (j : Fin 128) : V1 m ρ c main_v39 (ix2 k j) = (m ((c : Thread nD τ).loc main_arg4)) (ix2 (⟨256 + k.val, by omega⟩ : Fin 308) j) := by
  show StableHlo.after hostOps0 _ (Proc.devRef .tc main_v39) (ix2 k j) = _
  after_results_simp
  exact slice2_axis0_apply 256 _ slices_S308x128_S51x128_256_0 k j ⟨256 + k.val, by omega⟩ rfl

/-- Row 307. -/
theorem v1_v41 (c : Dev nD) (u : Fin 1) (j : Fin 128) : V1 m ρ c main_v41 (ix2 u j) = (m ((c : Thread nD τ).loc main_arg4)) (ix2 (⟨307, by omega⟩ : Fin 308) j) := by
  show StableHlo.after hostOps0 _ (Proc.devRef .tc main_v41) (ix2 u j) = _
  after_results_simp
  exact slice2_axis0_apply 307 _ slices_S308x128_S1x128_307_0 u j ⟨307, by omega⟩ (by show 307 = 307 + u.val; omega)

/-- A bias vector viewed as one row. -/
theorem v1_v42 (c : Dev nD) (u : Fin 1) (j : Fin 128) : V1 m ρ c main_v42 (ix2 u j) = (m ((c : Thread nD τ).loc main_arg5)) (ix1 j) := by
  show StableHlo.after hostOps0 _ (Proc.devRef .tc main_v42) (ix2 u j) = _
  after_results_simp
  exact shapeCast_a_1a_apply _ shapeCasts_S128_S1x128 u j

theorem v1_v43 (c : Dev nD) : V1 m ρ c main_v43 = (m ((c : Thread nD τ).loc main_arg6)) := by
  show StableHlo.after hostOps0 _ (Proc.devRef .tc main_v43) = _
  after_results_simp <;> rfl

theorem v1_v44 (c : Dev nD) (u : Fin 1) (j : Fin 128) : V1 m ρ c main_v44 (ix2 u j) = (m ((c : Thread nD τ).loc main_arg7)) (ix1 j) := by
  show StableHlo.after hostOps0 _ (Proc.devRef .tc main_v44) (ix2 u j) = _
  after_results_simp
  exact shapeCast_a_1a_apply _ shapeCasts_S128_S1x128 u j

theorem v1_v45 (c : Dev nD) : V1 m ρ c main_v45 = (m ((c : Thread nD τ).loc main_arg8)) := by
  show StableHlo.after hostOps0 _ (Proc.devRef .tc main_v45) = _
  after_results_simp <;> rfl

theorem v1_v46 (c : Dev nD) (u : Fin 1) (j : Fin 128) : V1 m ρ c main_v46 (ix2 u j) = (m ((c : Thread nD τ).loc main_arg9)) (ix1 j) := by
  show StableHlo.after hostOps0 _ (Proc.devRef .tc main_v46) (ix2 u j) = _
  after_results_simp
  exact shapeCast_a_1a_apply _ shapeCasts_S128_S1x128 u j

theorem v1_v47 (c : Dev nD) : V1 m ρ c main_v47 = (m ((c : Thread nD τ).loc main_arg10)) := by
  show StableHlo.after hostOps0 _ (Proc.devRef .tc main_v47) = _
  after_results_simp <;> rfl

/-! ## Between the grids -/

/-- An operand the edge grid only reads is, after the grid, what the grid found. -/
theorem w2_v33 (c : Dev nD) : W2 m ρ c (Proc.devRef .tc main_v33) = V1 m ρ c main_v33 :=
  (W2_arr m ρ c 3).trans (((dat0 (V1 m ρ) c).arrAt_in 3 rfl _).trans (A_eq0 (V1 m ρ) c 3))

/-- The new positions: the host's scatter-add of weight × difference, with the edge grid's coordinate-weight column. -/
theorem w3_v54 (c : Dev nD) : W3 m ρ c (Proc.devRef .tc main_v54)
    = newPos (m ((c : Thread nD τ).loc main_arg1)) (m ((c : Thread nD τ).loc main_arg3)) (EdgeRegion.coordArr (V1 m ρ) c) := by
  show StableHlo.after hostOps1 (W2 m ρ c) (Proc.devRef .tc main_v54) = _
  after_results_simp
  rw [W2_of_ne m ρ c main_arg3 (by decide), W2_of_ne m ρ c main_v1 (by decide), w2_v33,
    show W2 m ρ c (Proc.devRef .tc main_v48_1) = (dat0 (V1 m ρ) c).arrAt 15 cfg0.N from W2_arr m ρ c 15,
    EdgeRegion.final15, w1_arg3, w1_v1, v1_v33]
  rfl

/-- The aggregated messages: the host's scatter-add of the edge grid's message array. -/
theorem v3_v58 (c : Dev nD) : V3 m ρ c main_v58 = aggMsg (m ((c : Thread nD τ).loc main_arg1)) (EdgeRegion.msgArr (V1 m ρ) c) := by
  show StableHlo.after hostOps1 (W2 m ρ c) (Proc.devRef .tc main_v58) = _
  after_results_simp
  rw [W2_of_ne m ρ c main_v1 (by decide),
    show W2 m ρ c (Proc.devRef .tc main_v48_0) = (dat0 (V1 m ρ) c).arrAt 14 cfg0.N from W2_arr m ρ c 14,
    EdgeRegion.final14, w1_v1]
  rfl

theorem v3_arg0 (c : Dev nD) : V3 m ρ c main_arg0 = (m ((c : Thread nD τ).loc main_arg0)) := by
  show StableHlo.after hostOps1 _ (Proc.devRef .tc main_arg0) = _
  after_results_simp
  rw [W2_of_ne m ρ c main_arg0 (by decide), w1_arg0] <;> rfl

/-- Rows 0–127 of the node layer's weights. -/
theorem v3_v60 (c : Dev nD) (l : Fin 128) (j : Fin 128) : V3 m ρ c main_v60 (ix2 l j) = (m ((c : Thread nD τ).loc main_arg11)) (ix2 (⟨l.val, by omega⟩ : Fin 256) j) := by
  show StableHlo.after hostOps1 _ (Proc.devRef .tc main_v60) (ix2 l j) = _
  after_results_simp
  rw [W2_of_ne m ρ c main_arg11 (by decide), w1_arg11]
  exact slice2_axis0_apply 0 _ slices_S256x128_S128x128_0_0 l j ⟨l.val, by omega⟩ (by show l.val = 0 + l.val; omega)

/-- Rows 128–255. -/
theorem v3_v62 (c : Dev nD) (l : Fin 128) (j : Fin 128) : V3 m ρ c main_v62 (ix2 l j) = (m ((c : Thread nD τ).loc main_arg11)) (ix2 (⟨128 + l.val, by omega⟩ : Fin 256) j) := by
  show StableHlo.after hostOps1 _ (Proc.devRef .tc main_v62) (ix2 l j) = _
  after_results_simp
  rw [W2_of_ne m ρ c main_arg11 (by decide), w1_arg11]
  exact slice2_axis0_apply 128 _ slices_S256x128_S128x128_128_0 l j ⟨128 + l.val, by omega⟩ rfl

theorem v3_v63 (c : Dev nD) (u : Fin 1) (j : Fin 128) : V3 m ρ c main_v63 (ix2 u j) = (m ((c : Thread nD τ).loc main_arg12)) (ix1 j) := by
  show StableHlo.after hostOps1 _ (Proc.devRef .tc main_v63) (ix2 u j) = _
  after_results_simp
  rw [W2_of_ne m ρ c main_arg12 (by decide), w1_arg12]
  exact shapeCast_a_1a_apply _ shapeCasts_S128_S1x128 u j

theorem v3_v64 (c : Dev nD) : V3 m ρ c main_v64 = (m ((c : Thread nD τ).loc main_arg13)) := by
  show StableHlo.after hostOps1 _ (Proc.devRef .tc main_v64) = _
  after_results_simp
  rw [W2_of_ne m ρ c main_arg13 (by decide), w1_arg13] <;> rfl

theorem v3_v65 (c : Dev nD) (u : Fin 1) (j : Fin 128) : V3 m ρ c main_v65 (ix2 u j) = (m ((c : Thread nD τ).loc main_arg14)) (ix1 j) := by
  show StableHlo.after hostOps1 _ (Proc.devRef .tc main_v65) (ix2 u j) = _
  after_results_simp
  rw [W2_of_ne m ρ c main_arg14 (by decide), w1_arg14]
  exact shapeCast_a_1a_apply _ shapeCasts_S128_S1x128 u j

end Cert.KernelIdeal.Glue

end
-- ==== Proof.Bridge.lean ====
/-
  The two programs compute the same two arrays.
  Both start from the same host operations on the same arguments: the edge list's two columns, the wrapped node
  numbers, the gathered features and positions, the coordinate differences. On those rows the kernel program's edge
  grid leaves each edge's message and clipped coordinate weight as the specification's row functions of the four row
  blocks of the first weight matrix, and the reference computes the same row functions through the joined row and
  the whole matrix: the two agree by the splitting of a sum over a joined axis. The scatter-adds that follow are the
  same host operation on both sides, applied to equal arrays; and the node grid against the reference's last layers
  is the same comparison once more, with the aggregated messages in the joined row.
-/
import proofs.«171544_j47828755808708_2_alg».proof.Proof.Gen.ReferenceIdeal.Read
import proofs.«171544_j47828755808708_2_alg».proof.Proof.RefNet
import proofs.«171544_j47828755808708_2_alg».proof.Proof.NodeRegion
import proofs.«171544_j47828755808708_2_alg».proof.Proof.EdgeRegion
import proofs.«171544_j47828755808708_2_alg».proof.Proof.KernelGlue
import proofs.«171544_j47828755808708_2_alg».proof.Proof.NetSpec
import Idealize.ShloMosaic.Lib.ValueIdx

set_option maxRecDepth 16384

noncomputable section

namespace Cert.Bridge

open Cert.KernelIdeal Cert.KernelIdeal.Gen Idealize.ShloMosaic Idealize.ShloMosaic.TcCoe Idealize.ShloMosaic.ValueIdx
open Idealize.SL.Sem Cert.NetSpec

/-! ## The shared host chains are the reference's stages -/

theorem src_eq (x1 : IVec S2x800000 32) : Glue.srcIdx x1 = Cert.ReferenceIdeal.Read.val_main_v1 (F := Ideal) x1 := rfl

theorem featSrc_eq (x0 : FVec Ideal S50000x128 .f32) (x1 : IVec S2x800000 32) :
    Glue.featRows x0 (Glue.wrapIdx (Glue.srcIdx x1)) = Cert.ReferenceIdeal.Read.val_main_v31 (F := Ideal) x0 x1 := rfl

theorem featDst_eq (x0 : FVec Ideal S50000x128 .f32) (x1 : IVec S2x800000 32) :
    Glue.featRows x0 (Glue.wrapIdx (Glue.dstIdx x1)) = Cert.ReferenceIdeal.Read.val_main_v38 (F := Ideal) x0 x1 := rfl

theorem diff_eq (x1 : IVec S2x800000 32) (x3 : FVec Ideal S50000x3 .f32) :
    Glue.diff x1 x3 = Cert.ReferenceIdeal.Read.val_main_v18 (F := Ideal) x1 x3 := rfl

/-- The new positions: the same scatter-add on both sides, of the same products, once the coordinate weights agree. -/
theorem newPos_eq (x0 : FVec Ideal S50000x128 .f32) (x1 : IVec S2x800000 32) (x2 : FVec Ideal S800000x51 .f32)
    (x3 : FVec Ideal S50000x3 .f32) (x4 : FVec Ideal S308x128 .f32) (x5 : FVec Ideal S128 .f32) (x6 : FVec Ideal S128x128 .f32)
    (x7 : FVec Ideal S128 .f32) (x8 : FVec Ideal S128x128 .f32) (x9 : FVec Ideal S128 .f32) (x10 : FVec Ideal S128x1 .f32) :
    Glue.newPos x1 x3 (Cert.ReferenceIdeal.Read.val_main_v56 (F := Ideal) x0 x1 x2 x3 x4 x5 x6 x7 x8 x9 x10)
      = Cert.ReferenceIdeal.Read.val_main_v62 (F := Ideal) x0 x1 x2 x3 x4 x5 x6 x7 x8 x9 x10 := rfl

/-- The aggregated messages: the same scatter-add on both sides, once the messages agree. -/
theorem agg_eq (x0 : FVec Ideal S50000x128 .f32) (x1 : IVec S2x800000 32) (x2 : FVec Ideal S800000x51 .f32)
    (x3 : FVec Ideal S50000x3 .f32) (x4 : FVec Ideal S308x128 .f32) (x5 : FVec Ideal S128 .f32) (x6 : FVec Ideal S128x128 .f32)
    (x7 : FVec Ideal S128 .f32) :
    Glue.aggMsg x1 (Cert.ReferenceIdeal.Read.val_main_v49 (F := Ideal) x0 x1 x2 x3 x4 x5 x6 x7)
      = Cert.ReferenceIdeal.Read.val_main_v65 (F := Ideal) x0 x1 x2 x3 x4 x5 x6 x7 := rfl

/-! ## The row functions depend on the arrays only through the rows they read -/

section Rows

variable (V : (c : Dev nD) → (b : Ref sig .tc) → Buf (Elt Ideal) ((c : Thread nD τ).loc b))

theorem msgRow_of (c : Dev nD) (e : Fin 800000) (j : Fin 128)
    {hr hc : Fin 128 → EReal} {ea : Fin 51 → EReal} {d : Fin 3 → EReal} {Wr Wc : Fin 128 → Fin 128 → EReal}
    {Wa : Fin 51 → Fin 128 → EReal} {wρ b₁ : Fin 128 → EReal} {W₂ : Fin 128 → Fin 128 → EReal} {b₂ : Fin 128 → EReal}
    (h0 : (fun k => (V c main_v11 (ix2 e k) : EReal)) = hr) (h1 : (fun k => (V c main_v18 (ix2 e k) : EReal)) = hc)
    (h2 : (fun k => (V c main_arg2 (ix2 e k) : EReal)) = ea) (h3 : (fun k => (V c main_v33 (ix2 e k) : EReal)) = d)
    (h4 : (fun k j => (V c main_v35 (ix2 k j) : EReal)) = Wr) (h5 : (fun k j => (V c main_v37 (ix2 k j) : EReal)) = Wc)
    (h6 : (fun k j => (V c main_v39 (ix2 k j) : EReal)) = Wa) (h7 : (fun j => (V c main_v41 (ix2 (0 : Fin 1) j) : EReal)) = wρ)
    (h8 : (fun j => (V c main_v42 (ix2 (0 : Fin 1) j) : EReal)) = b₁) (h9 : (fun k j => (V c main_v43 (ix2 k j) : EReal)) = W₂)
    (h10 : (fun j => (V c main_v44 (ix2 (0 : Fin 1) j) : EReal)) = b₂) :
    EdgeRegion.msgRow V c e j
      = edgeMsg (edgePre hr hc ea d (Ideal.ofBits .f32 0x322BCC77#32) Wr Wc Wa wρ b₁) W₂ b₂ j := by
  subst h0 h1 h2 h3 h4 h5 h6 h7 h8 h9 h10; rfl

theorem coordRow_of (c : Dev nD) (e : Fin 800000) (u : Fin 1)
    {msg : Fin 128 → EReal} {W₃ : Fin 128 → Fin 128 → EReal} {b₃ w₄ : Fin 128 → EReal}
    (hm : EdgeRegion.msgRow V c e = msg) (h0 : (fun k j => (V c main_v45 (ix2 k j) : EReal)) = W₃)
    (h1 : (fun j => (V c main_v46 (ix2 (0 : Fin 1) j) : EReal)) = b₃) (h2 : (fun k => (V c main_v47 (ix2 k u) : EReal)) = w₄) :
    EdgeRegion.coordRow V c e u
      = edgeCoord msg W₃ b₃ w₄ (Ideal.ofBits .f32 0xBF800000#32) (Ideal.ofBits .f32 0x3F800000#32) := by
  subst hm h0 h1 h2; rfl

theorem nodeRow_of (c : Dev nD) (n : Fin 50000) (j : Fin 128)
    {h agg : Fin 128 → EReal} {Wh Wg : Fin 128 → Fin 128 → EReal} {b₅ : Fin 128 → EReal} {W₆ : Fin 128 → Fin 128 → EReal}
    {b₆ : Fin 128 → EReal}
    (h0 : (fun k => (V c main_arg0 (ix2 n k) : EReal)) = h) (h1 : (fun k => (V c main_v58 (ix2 n k) : EReal)) = agg)
    (h2 : (fun l k => (V c main_v60 (ix2 l k) : EReal)) = Wh) (h3 : (fun l k => (V c main_v62 (ix2 l k) : EReal)) = Wg)
    (h4 : (fun k => (V c main_v63 (ix2 (0 : Fin 1) k) : EReal)) = b₅) (h5 : (fun k j => (V c main_v64 (ix2 k j) : EReal)) = W₆)
    (h6 : (fun j => (V c main_v65 (ix2 (0 : Fin 1) j) : EReal)) = b₆) :
    NodeRegion.nodeRow V c n j = nodeOut h agg Wh Wg b₅ W₆ b₆ j := by
  subst h0 h1 h2 h3 h4 h5 h6; rfl

end Rows

variable (m : (ℓ : Loc nD τ sig) → Buf (Elt Ideal) ℓ) (ρ : Dev nD → PrngReg)

/-! ## The edge grid's arrays are the reference's stages -/

/-- The message array the edge grid leaves is the reference's second activation output. -/
theorem msg_eq (c : Dev nD) : EdgeRegion.msgArr (V1 m ρ) c
    = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨e, j, rfl⟩ : ∃ (e : Fin 800000) (j : Fin 128), i = ix2 e j := ⟨i 0, i 1, eq_ix2 i⟩
  rw [Cert.ReferenceIdeal.RefNet.msg_apply]
  exact msgRow_of (V1 m ρ) c e j
    (funext fun k => congrFun ((Glue.v1_v11 m ρ c).trans (featSrc_eq _ _)) (ix2 e k))
    (funext fun k => congrFun ((Glue.v1_v18 m ρ c).trans (featDst_eq _ _)) (ix2 e k))
    (funext fun k => congrFun (Glue.v1_arg2 m ρ c) (ix2 e k))
    (funext fun k => congrFun ((Glue.v1_v33 m ρ c).trans (diff_eq _ _)) (ix2 e k))
    (funext fun k => funext fun j => Glue.v1_v35 m ρ c k j)
    (funext fun k => funext fun j => Glue.v1_v37 m ρ c k j)
    (funext fun k => funext fun j => Glue.v1_v39 m ρ c k j)
    (funext fun j => Glue.v1_v41 m ρ c 0 j)
    (funext fun j => Glue.v1_v42 m ρ c 0 j)
    (funext fun k => funext fun j => congrFun (Glue.v1_v43 m ρ c) (ix2 k j))
    (funext fun j => Glue.v1_v44 m ρ c 0 j)

/-- The coordinate-weight column the edge grid leaves is the reference's clipped product. -/
theorem coord_eq (c : Dev nD) : EdgeRegion.coordArr (V1 m ρ) c
    = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨e, u, rfl⟩ : ∃ (e : Fin 800000) (u : Fin 1), i = ix2 e u := ⟨i 0, i 1, eq_ix2 i⟩
  obtain rfl : u = 0 := Subsingleton.elim u 0
  rw [Cert.ReferenceIdeal.RefNet.coord_apply]
  exact coordRow_of (V1 m ρ) c e 0
    (funext fun k => congrFun (msg_eq m ρ c) (ix2 e k))
    (funext fun k => funext fun j => congrFun (Glue.v1_v45 m ρ c) (ix2 k j))
    (funext fun j => Glue.v1_v46 m ρ c 0 j)
    (funext fun k => congrFun (Glue.v1_v47 m ρ c) (ix2 k (0 : Fin 1)))

/-! ## The two results -/

/-- The new positions. -/
theorem pos_eq (c : Dev nD) : W3 m ρ c (Proc.devRef .tc main_v54)
    = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Glue.w3_v54, coord_eq m ρ c]
  exact newPos_eq _ _ _ _ _ _ _ _ _ _ _

/-- The new node features. -/
theorem feat_eq (c : Dev nD) : (dat1 (F := Ideal) (V3 m ρ) c).arrAt 7 cfg1.N
    = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) := by
  rw [NodeRegion.node_array_fun]
  funext i
  obtain ⟨n, j, rfl⟩ : ∃ (n : Fin 50000) (j : Fin 128), i = ix2 n j := ⟨i 0, i 1, eq_ix2 i⟩
  rw [Cert.ReferenceIdeal.RefNet.node_apply]
  exact nodeRow_of (V3 m ρ) c n j
    (funext fun k => congrFun (Glue.v3_arg0 m ρ c) (ix2 n k))
    (funext fun k => congrFun ((Glue.v3_v58 m ρ c).trans
      ((congrArg (Glue.aggMsg (m ((c : Thread nD τ).loc main_arg1))) (msg_eq m ρ c)).trans (agg_eq _ _ _ _ _ _ _ _))) (ix2 n k))
    (funext fun l => funext fun k => Glue.v3_v60 m ρ c l k)
    (funext fun l => funext fun k => Glue.v3_v62 m ρ c l k)
    (funext fun k => Glue.v3_v63 m ρ c 0 k)
    (funext fun k => funext fun j => congrFun (Glue.v3_v64 m ρ c) (ix2 k j))
    (funext fun j => Glue.v3_v65 m ρ c 0 j)

end Cert.Bridge

end
-- ==== Proof.lean ====
/-
  The certificate of one message-passing layer on a graph of 50000 nodes and 800000 edges: a kernel program that
  runs the edge network on a grid of 125 blocks of edges and the node network on a grid of 10 blocks of nodes, with
  the gathers and scatter-adds on the host, against a reference that computes the same layer with whole matrix products.
  The three programs run: each one's frame is its generated run. Nothing was rewritten between the kernel program and its
  idealization. On the extended reals the two idealized programs end with equal arrays: the kernel program's run names
  its two results as what the node grid's write-backs leave and what the host computed between the grids; the reference's
  run names its two as its operations' composed terms; and the two pairs are equal, index by index, because a dense
  layer against a joined row is the sum of the dense layers against its parts.
-/
import proofs.«171544_j47828755808708_2_alg».proof.Defs
import proofs.«171544_j47828755808708_2_alg».proof.Proof.Gen.Kernel
import proofs.«171544_j47828755808708_2_alg».proof.Proof.Gen.Kernel.Skeleton
import proofs.«171544_j47828755808708_2_alg».proof.Proof.Gen.Kernel.Launch
import proofs.«171544_j47828755808708_2_alg».proof.Proof.Gen.Kernel.Points
import proofs.«171544_j47828755808708_2_alg».proof.Proof.Gen.Kernel.Frame
import proofs.«171544_j47828755808708_2_alg».proof.Proof.Gen.KernelIdeal
import proofs.«171544_j47828755808708_2_alg».proof.Proof.Gen.KernelIdeal.Skeleton
import proofs.«171544_j47828755808708_2_alg».proof.Proof.Gen.KernelIdeal.Launch
import proofs.«171544_j47828755808708_2_alg».proof.Proof.Gen.KernelIdeal.Points
import proofs.«171544_j47828755808708_2_alg».proof.Proof.Gen.KernelIdeal.Frame
import proofs.«171544_j47828755808708_2_alg».proof.Proof.Gen.ReferenceIdeal
import proofs.«171544_j47828755808708_2_alg».proof.Proof.Gen.ReferenceIdeal.Run
import proofs.«171544_j47828755808708_2_alg».proof.Proof.Gen.ReferenceIdeal.Read
import proofs.«171544_j47828755808708_2_alg».proof.Proof.Gen.Pre_finite_inputs
import proofs.«171544_j47828755808708_2_alg».proof.Proof.KernelRun
import proofs.«171544_j47828755808708_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the fifteen arguments both idealized programs run, and they end with the same new
    node features and the same new positions. -/
theorem algebraic : Cert.algebraic_KernelIdeal_ReferenceIdeal := by
  intro m ρ m' ρ' _ hagree
  refine ⟨fun c => (Cert.KernelIdeal.Gen.dat1 (F := Ideal) (Cert.KernelIdeal.Gen.V3 m ρ) c).arrAt 7 Cert.KernelIdeal.cfg1.N,
    fun c => Cert.KernelIdeal.Gen.W3 m ρ c (Proc.devRef .tc Cert.KernelIdeal.main_v54),
    Cert.KernelIdeal.ValueRun.run_results m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13, a14⟩ := hagree c
    rw [(h c).1, Cert.ReferenceIdeal.Read.val_main_v76_eq, a0, a1, a2, a3, a4, a5, a6, a7, a11, a12, a13, a14]
    exact (Cert.Bridge.feat_eq m ρ c).symm
  · obtain ⟨a0, a1, a2, a3, a4, a5, a6, a7, a8, a9, a10, a11, a12, a13, a14⟩ := hagree c
    rw [(h c).2.1, Cert.ReferenceIdeal.Read.val_main_v62_eq, a0, a1, a2, a3, a4, a5, a6, a7, a8, a9, a10]
    exact (Cert.Bridge.pos_eq m ρ c).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
